-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20x1x128x128x128 : Shape := ⟨5, ![20, 1, 128, 128, 128]⟩
abbrev S_ : Shape := ⟨0, ![]⟩

class Facts : Prop where
  bcast_S_S20x1x128x128x128 : S_.BroadcastsInDim S20x1x128x128x128 (![] : Fin 0 → Fin S20x1x128x128x128.rank)
  reducesTo_S20x1x128x128x128_S_d0_1_2_3_4 : S20x1x128x128x128.ReducesTo [0, 1, 2, 3, 4] S_
  h_S_ : 0 < S_.numel

variable [Facts]

def fn {F : FTy → Type} [FloatOps F] (main_arg0 : FVec F S20x1x128x128x128 .f32) (main_arg1 : FVec F S20x1x128x128x128 .f32) : IVec S_ 1 :=
  let main_v0 : FVec F S20x1x128x128x128 .f32 := Host.absf main_arg0
  let main_cst : FVec F S_ .f32 := constant S_ .f32 0x7F800000#32
  let main_v1 : FVec F S20x1x128x128x128 .f32 := broadcastInDim S20x1x128x128x128 ![] bcast_S_S20x1x128x128x128 main_cst
  let main_v2 : IVec S20x1x128x128x128 1 := cmpf .olt main_v0 main_v1
  let main_c : IVec S_ 1 := constantI S_ 1 1#1
  let main_v3 : IVec S_ 1 := (fun x v => Host.reduce IntOp.andi x v reducesTo_S20x1x128x128x128_S_d0_1_2_3_4 h_S_) main_v2 main_c
  let main_v4 : FVec F S20x1x128x128x128 .f32 := Host.absf main_arg1
  let main_cst_0 : FVec F S_ .f32 := constant S_ .f32 0x7F800000#32
  let main_v5 : FVec F S20x1x128x128x128 .f32 := broadcastInDim S20x1x128x128x128 ![] bcast_S_S20x1x128x128x128 main_cst_0
  let main_v6 : IVec S20x1x128x128x128 1 := cmpf .olt main_v4 main_v5
  let main_c_1 : IVec S_ 1 := constantI S_ 1 1#1
  let main_v7 : IVec S_ 1 := (fun x v => Host.reduce IntOp.andi x v reducesTo_S20x1x128x128x128_S_d0_1_2_3_4 h_S_) main_v6 main_c_1
  let main_v8 : IVec S_ 1 := andi main_v3 main_v7
  main_v8
-- ==== Kernel.lean ====
abbrev S20x1x128x128x128 : Shape := ⟨5, ![20, 1, 128, 128, 128]⟩
abbrev S20x128x128x128 : Shape := ⟨4, ![20, 128, 128, 128]⟩
abbrev S20x1x128 : Shape := ⟨3, ![20, 1, 128]⟩
abbrev S1x32x128x128 : Shape := ⟨4, ![1, 32, 128, 128]⟩
abbrev S1x1x128 : Shape := ⟨3, ![1, 1, 128]⟩
abbrev S1x32x128 : Shape := ⟨3, ![1, 32, 128]⟩
abbrev S1x32x128x1 : Shape := ⟨4, ![1, 32, 128, 1]⟩
abbrev S1x32x1 : Shape := ⟨3, ![1, 32, 1]⟩
abbrev S1x32x1x1 : Shape := ⟨4, ![1, 32, 1, 1]⟩
abbrev S1x1x1 : Shape := ⟨3, ![1, 1, 1]⟩
abbrev S1x1x1x1 : Shape := ⟨4, ![1, 1, 1, 1]⟩
abbrev S1x1 : Shape := ⟨2, ![1, 1]⟩
abbrev S20x1x1 : Shape := ⟨3, ![20, 1, 1]⟩
abbrev S20 : Shape := ⟨1, ![20]⟩
abbrev S_ : Shape := ⟨0, ![]⟩

abbrev nBuf : Space → Nat
  | .hbm => 31
  | .vmem => 10
  | .smem => 0
  | _ => 0

abbrev bufTy : (tb : Table) → Fin (tcTables nBuf tb) → BufTy
  | .hbm, ⟨0, _⟩ => ⟨S20x1x128x128x128, .f32⟩
  | .hbm, ⟨1, _⟩ => ⟨S20x1x128x128x128, .f32⟩
  | .hbm, ⟨2, _⟩ => ⟨S20x128x128x128, .f32⟩
  | .hbm, ⟨3, _⟩ => ⟨S20x128x128x128, .f32⟩
  | .hbm, ⟨4, _⟩ => ⟨S20x1x128, .f32⟩
  | .hbm, ⟨5, _⟩ => ⟨S20x1x128, .f32⟩
  | .hbm, ⟨6, _⟩ => ⟨S20x1x128, .f32⟩
  | .hbm, ⟨7, _⟩ => ⟨S20x1x1, .f32⟩
  | .hbm, ⟨8, _⟩ => ⟨S20, .f32⟩
  | .hbm, ⟨9, _⟩ => ⟨S20x1x1, .f32⟩
  | .hbm, ⟨10, _⟩ => ⟨S20, .f32⟩
  | .hbm, ⟨11, _⟩ => ⟨S20x1x1, .f32⟩
  | .hbm, ⟨12, _⟩ => ⟨S20, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S20, .f32⟩
  | .hbm, ⟨20, _⟩ => ⟨S20, .f32⟩
  | .hbm, ⟨21, _⟩ => ⟨S_, .f32⟩
  | .hbm, ⟨22, _⟩ => ⟨S20, .f32⟩
  | .hbm, ⟨23, _⟩ => ⟨S20, .f32⟩
  | .hbm, ⟨24, _⟩ => ⟨S20, .f32⟩
  | .hbm, ⟨25, _⟩ => ⟨S20, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x32x128x128, .f32⟩
  | .local _ .vmem, ⟨1, _⟩ => ⟨S1x32x128x128, .f32⟩
  | .local _ .vmem, ⟨2, _⟩ => ⟨S1x32x128x128, .f32⟩
  | .local _ .vmem, ⟨3, _⟩ => ⟨S1x32x128x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | _, _ => ⟨S20x1x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![20, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S20x1x128x128x128_S20x128x128x128 : S20x1x128x128x128.ShapeCasts S20x128x128x128
  inb_S1x1x128_S1x1x128_0_0_0 : ∀ a, (![0, 0, 0] : Fin 3 → Nat) a + S1x1x128.size a ≤ S1x1x128.size a
  h_S1x1x128 : 0 < S1x1x128.numel
  inb_S1x32x128x128_S1x32x128x128_0_0_0_0 : ∀ a, (![0, 0, 0, 0] : Fin 4 → Nat) a + S1x32x128x128.size a ≤ S1x32x128x128.size a
  h_S1x32x128x128 : 0 < S1x32x128x128.numel
  shapeCasts_S1x32x128x128_S1x32x128x128 : S1x32x128x128.ShapeCasts S1x32x128x128
  natLt_1_32 : 1 < 32
  reduces_S1x32x128x128_S1x32x128 : S1x32x128x128.Reduces [3] S1x32x128
  shapeCasts_S1x32x128_S1x32x128x1 : S1x32x128.ShapeCasts S1x32x128x1
  reduces_S1x32x128x1_S1x32x1 : S1x32x128x1.Reduces [2] S1x32x1
  shapeCasts_S1x32x1_S1x32x1x1 : S1x32x1.ShapeCasts S1x32x1x1
  reduces_S1x32x1x1_S1x1x1 : S1x32x1x1.Reduces [1] S1x1x1
  shapeCasts_S1x1x1_S1x1x1x1 : S1x1x1.ShapeCasts S1x1x1x1
  shapeCasts_S1x1x1x1_S1x1 : S1x1x1x1.ShapeCasts S1x1
  shapeCasts_S1x1x128_S1x1x128 : S1x1x128.ShapeCasts S1x1x128
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  slices_S20x1x128_S20x1x1_0_0_0 : S20x1x128.Slices ![0, 0, 0] S20x1x1
  shapeCasts_S20x1x1_S20 : S20x1x1.ShapeCasts S20
  reducesTo_S20_S_d0 : S20.ReducesTo [0] S_
  h_S_ : 0 < S_.numel
  bcast_S_S20 : S_.BroadcastsInDim S20 (![] : Fin 0 → Fin S20.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x128.size a ≤ S20x128x128x128.size a
  hwx0_0 : ∀ i : grid0.Coords, EltTy.bits .f32 = 32 ∨ (Rect.block (s := S20x128x128x128) S1x32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128x128.size a ≤ S20x128x128x128.size a
  hwx0_1 : ∀ i : grid0.Coords, EltTy.bits .f32 = 32 ∨ (Rect.block (s := S20x128x128x128) S1x32x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S20x1x128.size a
  hwx0_2 : ∀ i : grid0.Coords, EltTy.bits .f32 = 32 ∨ (Rect.block (s := S20x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S20x1x128.size a
  hwx0_3 : ∀ i : grid0.Coords, EltTy.bits .f32 = 32 ∨ (Rect.block (s := S20x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S20x1x128.size a
  hwx0_4 : ∀ i : grid0.Coords, EltTy.bits .f32 = 32 ∨ (Rect.block (s := S20x1x128) S1x1x128.size (cc0_transform_4 i) (hinb0_4 i)).WholeWords (EltTy.packing .f32)

variable [Facts₀]

abbrev win0_0 : Pipeline.Window sig grid0 :=
  Pipeline.Window.ofSpec (Memref.whole main_v0) S1x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S20x1x128x128x128 : Shape := ⟨5, ![20, 1, 128, 128, 128]⟩
abbrev S_ : Shape := ⟨0, ![]⟩
abbrev S20x2097152 : Shape := ⟨2, ![20, 2097152]⟩
abbrev S20 : Shape := ⟨1, ![20]⟩

abbrev nBuf : Space → Nat
  | .hbm => 60
  | .vmem => 0
  | .smem => 0
  | _ => 0

abbrev bufTy : (tb : Table) → Fin (tcTables nBuf tb) → BufTy
  | .hbm, ⟨0, _⟩ => ⟨S20x1x128x128x128, .f32⟩
  | .hbm, ⟨1, _⟩ => ⟨S20x1x128x128x128, .f32⟩
  | .hbm, ⟨2, _⟩ => ⟨S20x1x128x128x128, .f32⟩
  | .hbm, ⟨3, _⟩ => ⟨S_, .f32⟩
  | .hbm, ⟨4, _⟩ => ⟨S_, .f32⟩
  | .hbm, ⟨5, _⟩ => ⟨S20x1x128x128x128, .f32⟩
  | .hbm, ⟨6, _⟩ => ⟨S20x1x128x128x128, .f32⟩
  | .hbm, ⟨7, _⟩ => ⟨S20x1x128x128x128, .f32⟩
  | .hbm, ⟨8, _⟩ => ⟨S20x1x128x128x128, .f32⟩
  | .hbm, ⟨9, _⟩ => ⟨S_, .f32⟩
  | .hbm, ⟨10, _⟩ => ⟨S_, .f32⟩
  | .hbm, ⟨11, _⟩ => ⟨S20x1x128x128x128, .f32⟩
  | .hbm, ⟨12, _⟩ => ⟨S20x1x128x128x128, .f32⟩
  | .hbm, ⟨13, _⟩ => ⟨S20x1x128x128x128, .f32⟩
  | .hbm, ⟨14, _⟩ => ⟨S_, .f32⟩
  | .hbm, ⟨15, _⟩ => ⟨S20x1x128x128x128, .f32⟩
  | .hbm, ⟨16, _⟩ => ⟨S20x1x128x128x128, .f32⟩
  | .hbm, ⟨17, _⟩ => ⟨S20x1x128x128x128, .f32⟩
  | .hbm, ⟨18, _⟩ => ⟨S20x1x128x128x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S20x1x128x128x128, .f32⟩
  | .hbm, ⟨26, _⟩ => ⟨S20x1x128x128x128, .i1⟩
  | .hbm, ⟨27, _⟩ => ⟨S_, .i32⟩
  | .hbm, ⟨28, _⟩ => ⟨S_, .i32⟩
  | .hbm, ⟨29, _⟩ => ⟨S20x1x128x128x128, .i32⟩
  | .hbm, ⟨30, _⟩ => ⟨S20x1x128x128x128, .i32⟩
  | .hbm, ⟨31, _⟩ => ⟨S20x1x128x128x128, .i32⟩
  | .hbm, ⟨32, _⟩ => ⟨S20x1x128x128x128, .i32⟩
  | .hbm, ⟨33, _⟩ => ⟨S_, .i32⟩
  | .hbm, ⟨34, _⟩ => ⟨S20x1x128x128x128, .i32⟩
  | .hbm, ⟨35, _⟩ => ⟨S20x1x128x128x128, .i1⟩
  | .hbm, ⟨36, _⟩ => ⟨S20x1x128x128x128, .f32⟩
  | .hbm, ⟨37, _⟩ => ⟨S20x2097152, .f32⟩
  | .hbm, ⟨38, _⟩ => ⟨S_, .f32⟩
  | .hbm, ⟨39, _⟩ => ⟨S20, .f32⟩
  | .hbm, ⟨40, _⟩ => ⟨S_, .f32⟩
  | .hbm, ⟨41, _⟩ => ⟨S20, .f32⟩
  | .hbm, ⟨42, _⟩ => ⟨S20, .f32⟩
  | .hbm, ⟨43, _⟩ => ⟨S_, .i32⟩
  | .hbm, ⟨44, _⟩ => ⟨S20x1x128x128x128, .i32⟩
  | .hbm, ⟨45, _⟩ => ⟨S20x1x128x128x128, .i1⟩
  | .hbm, ⟨46, _⟩ => ⟨S20x1x128x128x128, .f32⟩
  | .hbm, ⟨47, _⟩ => ⟨S20x2097152, .f32⟩
  | .hbm, ⟨48, _⟩ => ⟨S_, .f32⟩
  | .hbm, ⟨49, _⟩ => ⟨S20, .f32⟩
  | .hbm, ⟨50, _⟩ => ⟨S_, .f32⟩
  | .hbm, ⟨51, _⟩ => ⟨S20, .f32⟩
  | .hbm, ⟨52, _⟩ => ⟨S20, .f32⟩
  | .hbm, ⟨53, _⟩ => ⟨S20, .f32⟩
  | .hbm, ⟨54, _⟩ => ⟨S20, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S20x1x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call1_v0 : Ref sig .tc := ⟨.hbm, 10, rfl⟩
abbrev main_call1_v1 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_c_5 : Ref sig .tc := ⟨.hbm, 28, rfl⟩
abbrev main_call2_v0 : Ref sig .tc := ⟨.hbm, 29, rfl⟩
abbrev main_call2_v1 : Ref sig .tc := ⟨.hbm, 30, rfl⟩
abbrev main_v15 : Ref sig .tc := ⟨.hbm, 31, rfl⟩
abbrev main_v16 : Ref sig .tc := ⟨.hbm, 32, rfl⟩
abbrev main_c_6 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_cst_8 : Ref sig .tc := ⟨.hbm, 40, rfl⟩
abbrev main_v22 : Ref sig .tc := ⟨.hbm, 41, rfl⟩
abbrev main_v23 : Ref sig .tc := ⟨.hbm, 42, rfl⟩
abbrev main_c_9 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_10 : Ref sig .tc := ⟨.hbm, 48, rfl⟩
abbrev main_v28 : Ref sig .tc := ⟨.hbm, 49, rfl⟩
abbrev main_cst_11 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_12 : Ref sig .tc := ⟨.hbm, 55, rfl⟩
abbrev main_v33 : Ref sig .tc := ⟨.hbm, 56, rfl⟩
abbrev main_cst_13 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]

class Facts₀ : Prop where
  bcast_S_S20x1x128x128x128 : S_.BroadcastsInDim S20x1x128x128x128 (![] : Fin 0 → Fin S20x1x128x128x128.rank)
  reducesTo_S20x1x128x128x128_S_d0_1_2_3_4 : S20x1x128x128x128.ReducesTo [0, 1, 2, 3, 4] S_
  h_S_ : 0 < S_.numel
  shapeCasts_S20x1x128x128x128_S20x2097152 : S20x1x128x128x128.ShapeCasts S20x2097152
  reducesTo_S20x2097152_S20_d1 : S20x2097152.ReducesTo [1] S20
  bcast_S_S20 : S_.BroadcastsInDim S20 (![] : Fin 0 → Fin S20.rank)
  reducesTo_S20_S_d0 : S20.ReducesTo [0] S_

variable [Facts₀]

class Facts : Prop extends Facts₀ where

variable [Facts]
-- ==== Proof.Pieces.lean ====
/-
  What one run of the kernel body leaves in the three output blocks.

  The body loads the two input blocks whole, computes the block's three partial sums, and for each output adds the
  partial sum (broadcast along the 128 lanes) to what the output's buffer holds; at the first chunk of a sample it
  first overwrites that buffer with zeros. Every store covers its buffer whole, so what a buffer ends with is the
  last store's value, and every load reads the buffer's whole contents: at a first chunk the zero block just
  stored, otherwise what the previous chunk left.
-/
import proofs.«100967_j8254927143083_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a later point of a sample, output 2's buffer, holding `xo2`, is left at the body's one covering store:
    the accumulator plus the block's partial sum, broadcast along the lanes. -/
theorem out_B_2 (c : Dev nD) (i : grid0.Coords) (a2 : Memref sig .tc .vmem S1x32x128x128 .f32) (h2 : a2.IsWhole)
    (a3 : Memref sig .tc .vmem S1x32x128x128 .f32) (h3 : a3.IsWhole) (a4 : Memref sig .tc .vmem S1x1x128 .f32) (h4 : a4.IsWhole)
    (a5 : Memref sig .tc .vmem S1x1x128 .f32) (h5 : a5.IsWhole) (a6 : Memref sig .tc .vmem S1x1x128 .f32) (h6 : a6.IsWhole)
    (hc : ¬cond0_0 i) (x0 x1 : Vec F S1x32x128x128 .f32) (xo2 xo3 xo4 : Vec F S1x1x128 .f32) :
    out0_B_2 c i a2 h2 a3 h3 a4 h4 a5 h5 a6 h6 hc x0 x1 xo2 xo3 xo4 = k0_pay9 (k0_pay7 x0 x1) xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x1x128) hz3, View.ld_unit_zero (S := S1x32x128x128) hz4]

/-- At a later point of a sample, output 3's buffer, holding `xo3`, is left at the body's one covering store:
    the accumulator plus the block's partial sum, broadcast along the lanes. -/
theorem out_B_3 (c : Dev nD) (i : grid0.Coords) (a2 : Memref sig .tc .vmem S1x32x128x128 .f32) (h2 : a2.IsWhole)
    (a3 : Memref sig .tc .vmem S1x32x128x128 .f32) (h3 : a3.IsWhole) (a4 : Memref sig .tc .vmem S1x1x128 .f32) (h4 : a4.IsWhole)
    (a5 : Memref sig .tc .vmem S1x1x128 .f32) (h5 : a5.IsWhole) (a6 : Memref sig .tc .vmem S1x1x128 .f32) (h6 : a6.IsWhole)
    (hc : ¬cond0_0 i) (x0 x1 : Vec F S1x32x128x128 .f32) (xo2 xo3 xo4 : Vec F S1x1x128 .f32) :
    out0_B_3 c i a2 h2 a3 h3 a4 h4 a5 h5 a6 h6 hc x0 x1 xo2 xo3 xo4 = k0_pay10 (k0_pay8 x0) xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x1x128) hz3, View.ld_unit_zero (S := S1x32x128x128) hz4]

/-- At a later point of a sample, output 4's buffer, holding `xo4`, is left at the body's one covering store:
    the accumulator plus the block's partial sum, broadcast along the lanes. -/
theorem out_B_4 (c : Dev nD) (i : grid0.Coords) (a2 : Memref sig .tc .vmem S1x32x128x128 .f32) (h2 : a2.IsWhole)
    (a3 : Memref sig .tc .vmem S1x32x128x128 .f32) (h3 : a3.IsWhole) (a4 : Memref sig .tc .vmem S1x1x128 .f32) (h4 : a4.IsWhole)
    (a5 : Memref sig .tc .vmem S1x1x128 .f32) (h5 : a5.IsWhole) (a6 : Memref sig .tc .vmem S1x1x128 .f32) (h6 : a6.IsWhole)
    (hc : ¬cond0_0 i) (x0 x1 : Vec F S1x32x128x128 .f32) (xo2 xo3 xo4 : Vec F S1x1x128 .f32) :
    out0_B_4 c i a2 h2 a3 h3 a4 h4 a5 h5 a6 h6 hc x0 x1 xo2 xo3 xo4 = k0_pay11 (k0_pay6 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x1x128) hz3, View.ld_unit_zero (S := S1x32x128x128) hz4]

/-- At the first point of a sample the body first stores the zero block into output 2's buffer, reads it back,
    and leaves the zero block plus the block's partial sum. -/
theorem out_A_2 (c : Dev nD) (i : grid0.Coords) (a2 : Memref sig .tc .vmem S1x32x128x128 .f32) (h2 : a2.IsWhole)
    (a3 : Memref sig .tc .vmem S1x32x128x128 .f32) (h3 : a3.IsWhole) (a4 : Memref sig .tc .vmem S1x1x128 .f32) (h4 : a4.IsWhole)
    (a5 : Memref sig .tc .vmem S1x1x128 .f32) (h5 : a5.IsWhole) (a6 : Memref sig .tc .vmem S1x1x128 .f32) (h6 : a6.IsWhole)
    (hc : cond0_0 i) (x0 x1 : Vec F S1x32x128x128 .f32) :
    out0_A_2 c i a2 h2 a3 h3 a4 h4 a5 h5 a6 h6 hc x0 x1 = k0_pay9 (k0_pay7 x0 x1) (k0_pay1 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread,
    View.ld_unit_zero (S := S1x1x128) hz3, View.ld_unit_zero (S := S1x32x128x128) hz4]

/-- At the first point of a sample the body first stores the zero block into output 3's buffer, reads it back,
    and leaves the zero block plus the block's partial sum. -/
theorem out_A_3 (c : Dev nD) (i : grid0.Coords) (a2 : Memref sig .tc .vmem S1x32x128x128 .f32) (h2 : a2.IsWhole)
    (a3 : Memref sig .tc .vmem S1x32x128x128 .f32) (h3 : a3.IsWhole) (a4 : Memref sig .tc .vmem S1x1x128 .f32) (h4 : a4.IsWhole)
    (a5 : Memref sig .tc .vmem S1x1x128 .f32) (h5 : a5.IsWhole) (a6 : Memref sig .tc .vmem S1x1x128 .f32) (h6 : a6.IsWhole)
    (hc : cond0_0 i) (x0 x1 : Vec F S1x32x128x128 .f32) :
    out0_A_3 c i a2 h2 a3 h3 a4 h4 a5 h5 a6 h6 hc x0 x1 = k0_pay10 (k0_pay8 x0) (k0_pay2 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread,
    View.ld_unit_zero (S := S1x1x128) hz3, View.ld_unit_zero (S := S1x32x128x128) hz4]

/-- At the first point of a sample the body first stores the zero block into output 4's buffer, reads it back,
    and leaves the zero block plus the block's partial sum. -/
theorem out_A_4 (c : Dev nD) (i : grid0.Coords) (a2 : Memref sig .tc .vmem S1x32x128x128 .f32) (h2 : a2.IsWhole)
    (a3 : Memref sig .tc .vmem S1x32x128x128 .f32) (h3 : a3.IsWhole) (a4 : Memref sig .tc .vmem S1x1x128 .f32) (h4 : a4.IsWhole)
    (a5 : Memref sig .tc .vmem S1x1x128 .f32) (h5 : a5.IsWhole) (a6 : Memref sig .tc .vmem S1x1x128 .f32) (h6 : a6.IsWhole)
    (hc : cond0_0 i) (x0 x1 : Vec F S1x32x128x128 .f32) :
    out0_A_4 c i a2 h2 a3 h3 a4 h4 a5 h5 a6 h6 hc x0 x1 = k0_pay11 (k0_pay6 x1) (k0_pay3 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread,
    View.ld_unit_zero (S := S1x1x128) hz3, View.ld_unit_zero (S := S1x32x128x128) hz4]

end Cert.KernelIdeal.Pieces

end
-- ==== Proof.Spec.lean ====
/-
  The quantities both programs compute, stated over plain index types and the extended reals.

  For inputs x, y of shape [20, 1, 128, 128, 128] and each of the 20 samples b, three sums run over the
  128 x 128 x 128 entries of the sample: the cross-entropy terms
      y * max (log x) (-100) + (1 - y) * max (log (1 + (0 - x))) (-100),
  the count of entries with x <= 1/2, and the count of entries whose y truncates to the integer 0.
  The depth axis is written as 4 chunks of 32 planes, depth = 32 * c + s: a sum over the depth axis is
  the sum over the chunks of the sums over the planes of a chunk, whichever way it is grouped.
-/
import Idealize.ShloMosaic.PureOps.Ideal
import Idealize.ShloMosaic.Lib.ValueIdx

noncomputable section

open scoped BigOperators

namespace Cert.Spec

open Idealize.ShloMosaic Idealize.ShloMosaic.ValueIdx

/-- An input array: an extended real at every index of [20, 1, 128, 128, 128]. -/
abbrev Arr : Type := (⟨5, ![20, 1, 128, 128, 128]⟩ : Shape).Idx → EReal

/-- One entry's cross-entropy term, both logarithms clamped below at -100 (the literal words are the
    f32 patterns of -100, 1 and 0). -/
def term (x y : EReal) : EReal :=
  y * max (Ideal.log x) (Ideal.ofBits .f32 0xC2C80000#32)
    + (Ideal.ofBits .f32 0x3F800000#32 - y)
      * max (Ideal.log1p (Ideal.ofBits .f32 0x00000000#32 - x)) (Ideal.ofBits .f32 0xC2C80000#32)

/-- 1 when x <= 1/2, else 0: the comparison bit widened to 32 bits and read as a signed integer. -/
def lowX (x : EReal) : EReal :=
  (((((Ideal.cmp .ole x (Ideal.ofBits .f32 0x3F000000#32)).setWidth 32).toInt : ℤ) : ℝ) : EReal)

/-- 1 when y truncates to the 32-bit integer 0, else 0. -/
def zeroY (y : EReal) : EReal :=
  (((((IntOp.cmpi .eq (Ideal.fptosi 32 y) 0#32).setWidth 32).toInt : ℤ) : ℝ) : EReal)

/-- Plane s of chunk c along the depth axis. -/
def depth (c : Fin 4) (s : Fin 32) : Fin 128 :=
  ⟨32 * c.val + s.val, by have := c.isLt; have := s.isLt; omega⟩

/-- The sum of g over one sample's entries, the depth axis grouped into its 4 chunks of 32 planes. -/
def batchSum (g : EReal → EReal → EReal) (x y : Arr) (b : Fin 20) : EReal :=
  ∑ c : Fin 4, ∑ s : Fin 32, ∑ r : Fin 128, ∑ l : Fin 128,
    g (x (ix5 b (0 : Fin 1) (depth c s) r l)) (y (ix5 b (0 : Fin 1) (depth c s) r l))

end Cert.Spec

end
-- ==== Proof.Payload.lean ====
/-
  The kernel body's arithmetic, read at an index, at the ideal instance (floats are extended reals).

  One block holds x0, x1 of shape [1, 32, 128, 128] and an accumulator block of shape [1, 1, 128]. For each of
  its three outputs the body forms an elementwise value on the block (the cross-entropy term, the indicator
  of x <= 1/2, the indicator of y truncating to 0), sums it over the three trailing axes one axis at a time
  (lanes first, then rows, then planes; after each sum the summed axis is kept as a unit axis by a shape
  cast), broadcasts the resulting number along the 128 lanes and adds it to the accumulator block. Read at
  lane j, every output is therefore the accumulator at j plus the triple sum over planes, rows and lanes
  of the elementwise value. Each sum starts from the f32 word 0, which is the extended real 0 and drops out.
  At a sample's first grid point the accumulator blocks were just stored as the broadcast of that word: 0.
-/
import proofs.«100967_j8254927143083_2_alg».proof.Proof.Gen.KernelIdeal.Skeleton
import proofs.«100967_j8254927143083_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Payload

open Idealize.ShloMosaic Idealize.ShloMosaic.ValueIdx Cert.KernelIdeal Cert.KernelIdeal.Gen

/-! ## One axis summed at a time -/

/-- The sum over the last axis (lanes) of a [1, 32, 128, 128] block, read at (0, s, r). -/
theorem sum_lanes (v : FVec Ideal S1x32x128x128 .f32) (h : S1x32x128x128.Reduces [3] S1x32x128)
    (hφ : FKind.Formats .f32) (hacc : (0x00000000#32 : BitVec 32) = 0x00000000#32) (s : Fin 32) (r : Fin 128) :
    multiReduction .add [3] S1x32x128 v 0x00000000#32 h hφ hacc (ix3 (0 : Fin 1) s r)
      = ∑ l : Fin 128, v (ix4 (0 : Fin 1) s r l) := by
  refine (Ideal.multiReduction_add_single v 0x00000000#32 h hφ hacc (ix3 (0 : Fin 1) s r)).trans ?_
  refine Finset.sum_congr rfl fun l _ => congrArg v (funext fun c => Fin.ext ?_)
  match c with
  | ⟨0, _⟩ => rfl
  | ⟨1, _⟩ => rfl
  | ⟨2, _⟩ => rfl
  | ⟨3, _⟩ => rfl

/-- The sum over axis 2 (rows) of a [1, 32, 128, 1] block, read at (0, s, 0). -/
theorem sum_rows (v : FVec Ideal S1x32x128x1 .f32) (h : S1x32x128x1.Reduces [2] S1x32x1)
    (hφ : FKind.Formats .f32) (hacc : (0x00000000#32 : BitVec 32) = 0x00000000#32) (s : Fin 32) :
    multiReduction .add [2] S1x32x1 v 0x00000000#32 h hφ hacc (ix3 (0 : Fin 1) s (0 : Fin 1))
      = ∑ r : Fin 128, v (ix4 (0 : Fin 1) s r (0 : Fin 1)) := by
  refine (Ideal.multiReduction_add_single v 0x00000000#32 h hφ hacc (ix3 (0 : Fin 1) s (0 : Fin 1))).trans ?_
  refine Finset.sum_congr rfl fun r _ => congrArg v (funext fun c => Fin.ext ?_)
  match c with
  | ⟨0, _⟩ => rfl
  | ⟨1, _⟩ => rfl
  | ⟨2, _⟩ => rfl
  | ⟨3, _⟩ => rfl

/-- The sum over axis 1 (planes) of a [1, 32, 1, 1] block, read at (0, 0, 0). -/
theorem sum_planes (v : FVec Ideal S1x32x1x1 .f32) (h : S1x32x1x1.Reduces [1] S1x1x1)
    (hφ : FKind.Formats .f32) (hacc : (0x00000000#32 : BitVec 32) = 0x00000000#32) :
    multiReduction .add [1] S1x1x1 v 0x00000000#32 h hφ hacc (ix3 (0 : Fin 1) (0 : Fin 1) (0 : Fin 1))
      = ∑ s : Fin 32, v (ix4 (0 : Fin 1) s (0 : Fin 1) (0 : Fin 1)) := by
  refine (Ideal.multiReduction_add_single v 0x00000000#32 h hφ hacc (ix3 (0 : Fin 1) (0 : Fin 1) (0 : Fin 1))).trans ?_
  refine Finset.sum_congr rfl fun s _ => congrArg v (funext fun c => Fin.ext ?_)
  match c with
  | ⟨0, _⟩ => rfl
  | ⟨1, _⟩ => rfl
  | ⟨2, _⟩ => rfl
  | ⟨3, _⟩ => rfl

/-! ## The shape casts that restore a summed axis as a unit axis, and the final broadcast -/

/-- [1, 32, 128] viewed as [1, 32, 128, 1]. -/
theorem cast_lanes_unit {α : Type} (v : S1x32x128.Idx → α) (h : S1x32x128.ShapeCasts S1x32x128x1) (s : Fin 32) (r : Fin 128) :
    shapeCast S1x32x128x1 v h (ix4 (0 : Fin 1) s r (0 : Fin 1)) = v (ix3 (0 : Fin 1) s r) :=
  shapeCast_apply v h _ _ (by
    rw [Shape.rowMajor_val_four, Shape.rowMajor_val_three]
    show (0 * 32 + s.val) * 128 + r.val = ((0 * 32 + s.val) * 128 + r.val) * 1 + 0
    omega)

/-- [1, 32, 1] viewed as [1, 32, 1, 1]. -/
theorem cast_rows_unit {α : Type} (v : S1x32x1.Idx → α) (h : S1x32x1.ShapeCasts S1x32x1x1) (s : Fin 32) :
    shapeCast S1x32x1x1 v h (ix4 (0 : Fin 1) s (0 : Fin 1) (0 : Fin 1)) = v (ix3 (0 : Fin 1) s (0 : Fin 1)) :=
  shapeCast_apply v h _ _ (by
    rw [Shape.rowMajor_val_four, Shape.rowMajor_val_three]
    show (0 * 32 + s.val) * 1 + 0 = ((0 * 32 + s.val) * 1 + 0) * 1 + 0
    omega)

/-- [1, 1, 1] viewed as [1, 1, 1, 1]. -/
theorem cast_planes_unit {α : Type} (v : S1x1x1.Idx → α) (h : S1x1x1.ShapeCasts S1x1x1x1) :
    shapeCast S1x1x1x1 v h (ix4 (0 : Fin 1) (0 : Fin 1) (0 : Fin 1) (0 : Fin 1)) = v (ix3 (0 : Fin 1) (0 : Fin 1) (0 : Fin 1)) :=
  shapeCast_apply v h _ _ (by
    rw [Shape.rowMajor_val_four, Shape.rowMajor_val_three]
    rfl)

/-- [1, 1, 1, 1] viewed as [1, 1]. -/
theorem cast_unit4_unit2 {α : Type} (v : S1x1x1x1.Idx → α) (h : S1x1x1x1.ShapeCasts S1x1) :
    shapeCast S1x1 v h (ix2 (0 : Fin 1) (0 : Fin 1)) = v (ix4 (0 : Fin 1) (0 : Fin 1) (0 : Fin 1) (0 : Fin 1)) :=
  shapeCast_apply v h _ _ (by
    rw [Shape.rowMajor_val_four, Shape.rowMajor_val_two]
    rfl)

/-- [1, 1] viewed as [1, 1, 1]. -/
theorem cast_unit2_unit3 {α : Type} (v : S1x1.Idx → α) (h : S1x1.ShapeCasts S1x1x1) :
    shapeCast S1x1x1 v h (ix3 (0 : Fin 1) (0 : Fin 1) (0 : Fin 1)) = v (ix2 (0 : Fin 1) (0 : Fin 1)) :=
  shapeCast_apply v h _ _ (by
    rw [Shape.rowMajor_val_three, Shape.rowMajor_val_two]
    rfl)

/-- The one entry of a [1, 1, 1] block broadcast along the 128 lanes of [1, 1, 128]. -/
theorem bcast_lanes {α : Type} (v : S1x1x1.Idx → α) (h : S1x1x1.Broadcasts S1x1x128) (j : Fin 128) :
    broadcastTo S1x1x128 v h (ix3 (0 : Fin 1) (0 : Fin 1) j) = v (ix3 (0 : Fin 1) (0 : Fin 1) (0 : Fin 1)) := by
  refine broadcastTo_apply v h _ _ fun a => ?_
  match a with
  | ⟨0, _⟩ => rfl
  | ⟨1, _⟩ => rfl
  | ⟨2, _⟩ => rfl

/-! ## The three sums in turn, and the addition onto the accumulator -/

/-- From the lane sums to the one number: the rows summed, then the planes, through the unit-axis views. -/
theorem sum_rows_planes (w : FVec Ideal S1x32x128 .f32)
    (c1 : S1x32x128.ShapeCasts S1x32x128x1) (h2 : S1x32x128x1.Reduces [2] S1x32x1)
    (c2 : S1x32x1.ShapeCasts S1x32x1x1) (h1 : S1x32x1x1.Reduces [1] S1x1x1)
    (c3 : S1x1x1.ShapeCasts S1x1x1x1) (c4 : S1x1x1x1.ShapeCasts S1x1)
    (hφ : FKind.Formats .f32) (hacc : (0x00000000#32 : BitVec 32) = 0x00000000#32) :
    shapeCast S1x1 (shapeCast S1x1x1x1 (multiReduction .add [1] S1x1x1 (shapeCast S1x32x1x1
        (multiReduction .add [2] S1x32x1 (shapeCast S1x32x128x1 w c1) 0x00000000#32 h2 hφ hacc) c2)
        0x00000000#32 h1 hφ hacc) c3) c4 (ix2 (0 : Fin 1) (0 : Fin 1))
      = ∑ s : Fin 32, ∑ r : Fin 128, w (ix3 (0 : Fin 1) s r) := by
  refine (cast_unit4_unit2 _ c4).trans ?_
  refine (cast_planes_unit _ c3).trans ?_
  refine (sum_planes _ h1 hφ hacc).trans ?_
  refine Finset.sum_congr rfl fun s _ => ?_
  refine (cast_rows_unit _ c2 s).trans ?_
  refine (sum_rows _ h2 hφ hacc s).trans ?_
  exact Finset.sum_congr rfl fun r _ => cast_lanes_unit w c1 s r

/-- The one number, viewed [1, 1, 1], broadcast along the lanes and added to the accumulator block. -/
theorem add_bcast (u : FVec Ideal S1x1 .f32) (acc : Vec Ideal S1x1x128 .f32)
    (c5 : S1x1x128.ShapeCasts S1x1x128) (c6 : S1x1.ShapeCasts S1x1x1) (c7 : S1x1x1.ShapeCasts S1x1x1)
    (b : S1x1x1.Broadcasts S1x1x128) (j : Fin 128) :
    addf (shapeCast S1x1x128 acc c5) (broadcastTo S1x1x128 (shapeCast S1x1x1 (shapeCast S1x1x1 u c6) c7) b)
        (ix3 (0 : Fin 1) (0 : Fin 1) j)
      = acc (ix3 (0 : Fin 1) (0 : Fin 1) j) + u (ix2 (0 : Fin 1) (0 : Fin 1)) := by
  rw [addf_apply, shapeCast_self, bcast_lanes, shapeCast_self, cast_unit2_unit3]

/-! ## The payloads -/

/-- The cross-entropy accumulator after one block: what it held plus the block's terms. -/
theorem pay_bce (x0 x1 : Vec Ideal S1x32x128x128 .f32) (acc : Vec Ideal S1x1x128 .f32) (j : Fin 128) :
    k0_pay9 (F := Ideal) (k0_pay7 (F := Ideal) x0 x1) acc (ix3 (0 : Fin 1) (0 : Fin 1) j)
      = acc (ix3 (0 : Fin 1) (0 : Fin 1) j)
        + ∑ s : Fin 32, ∑ r : Fin 128, ∑ l : Fin 128,
            Cert.Spec.term (x0 (ix4 (0 : Fin 1) s r l)) (x1 (ix4 (0 : Fin 1) s r l)) := by
  unfold k0_pay9
  refine (add_bcast _ acc _ _ _ _ j).trans ?_
  refine congrArg (acc (ix3 (0 : Fin 1) (0 : Fin 1) j) + ·) ?_
  unfold k0_pay7
  refine (sum_rows_planes _ _ _ _ _ _ _ _ _).trans ?_
  refine Finset.sum_congr rfl fun s _ => Finset.sum_congr rfl fun r _ => ?_
  refine (sum_lanes _ _ _ _ s r).trans ?_
  refine Finset.sum_congr rfl fun l _ => ?_
  unfold k0_pay4 k0_pay5
  simp only [shapeCast_self]
  rfl

/-- The count of entries with x at most 1/2. -/
theorem pay_lowX (x0 : Vec Ideal S1x32x128x128 .f32) (acc : Vec Ideal S1x1x128 .f32) (j : Fin 128) :
    k0_pay10 (F := Ideal) (k0_pay8 (F := Ideal) x0) acc (ix3 (0 : Fin 1) (0 : Fin 1) j)
      = acc (ix3 (0 : Fin 1) (0 : Fin 1) j)
        + ∑ s : Fin 32, ∑ r : Fin 128, ∑ l : Fin 128, Cert.Spec.lowX (x0 (ix4 (0 : Fin 1) s r l)) := by
  unfold k0_pay10
  refine (add_bcast _ acc _ _ _ _ j).trans ?_
  refine congrArg (acc (ix3 (0 : Fin 1) (0 : Fin 1) j) + ·) ?_
  refine (sum_rows_planes _ _ _ _ _ _ _ _ _).trans ?_
  refine Finset.sum_congr rfl fun s _ => Finset.sum_congr rfl fun r _ => ?_
  unfold k0_pay8
  refine (sum_lanes _ _ _ _ s r).trans ?_
  refine Finset.sum_congr rfl fun l _ => ?_
  unfold k0_pay4
  simp only [shapeCast_self]
  rfl

/-- The count of entries whose y truncates to 0. -/
theorem pay_zeroY (x1 : Vec Ideal S1x32x128x128 .f32) (acc : Vec Ideal S1x1x128 .f32) (j : Fin 128) :
    k0_pay11 (F := Ideal) (k0_pay6 (F := Ideal) x1) acc (ix3 (0 : Fin 1) (0 : Fin 1) j)
      = acc (ix3 (0 : Fin 1) (0 : Fin 1) j)
        + ∑ s : Fin 32, ∑ r : Fin 128, ∑ l : Fin 128, Cert.Spec.zeroY (x1 (ix4 (0 : Fin 1) s r l)) := by
  unfold k0_pay11
  refine (add_bcast _ acc _ _ _ _ j).trans ?_
  refine congrArg (acc (ix3 (0 : Fin 1) (0 : Fin 1) j) + ·) ?_
  refine (sum_rows_planes _ _ _ _ _ _ _ _ _).trans ?_
  refine Finset.sum_congr rfl fun s _ => Finset.sum_congr rfl fun r _ => ?_
  refine (sum_lanes _ _ _ _ s r).trans ?_
  refine Finset.sum_congr rfl fun l _ => ?_
  unfold k0_pay6 k0_pay5
  simp only [shapeCast_self]
  rfl

/-! ## The zero blocks stored at a sample's first grid point -/

theorem zero_block (j : Fin 128) : k0_pay1 (F := Ideal) (ix3 (0 : Fin 1) (0 : Fin 1) j) = 0 :=
  Ideal.ofBits_zero_f32
theorem zero_block2 (j : Fin 128) : k0_pay2 (F := Ideal) (ix3 (0 : Fin 1) (0 : Fin 1) j) = 0 :=
  Ideal.ofBits_zero_f32
theorem zero_block3 (j : Fin 128) : k0_pay3 (F := Ideal) (ix3 (0 : Fin 1) (0 : Fin 1) j) = 0 :=
  Ideal.ofBits_zero_f32

end Cert.Payload

end
-- ==== Proof.Acc.lean ====
/-
  The running totals the three outputs hold, point by point.

  The grid has 80 points, sample b's four chunks at the points 4b, 4b+1, 4b+2, 4b+3. At a point divisible by 4 the
  body restarts each total from zero; at the others it adds the block's partial sum to what the previous point left.
  Every lane of an output block holds the same total.
-/
import proofs.«100967_j8254927143083_2_alg».proof.Proof.Pieces
import proofs.«100967_j8254927143083_2_alg».proof.Proof.Payload
import proofs.«100967_j8254927143083_2_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Pieces

/-- One block's sum of the cross-entropy terms. -/
def partBce (x0 x1 : Vec Ideal S1x32x128x128 .f32) : EReal :=
  ∑ s : Fin 32, ∑ r : Fin 128, ∑ l : Fin 128, Cert.Spec.term (x0 (ix4 (0 : Fin 1) s r l)) (x1 (ix4 (0 : Fin 1) s r l))
/-- One block's count of entries of x at most 1/2. -/
def partLowX (x0 : Vec Ideal S1x32x128x128 .f32) : EReal :=
  ∑ s : Fin 32, ∑ r : Fin 128, ∑ l : Fin 128, Cert.Spec.lowX (x0 (ix4 (0 : Fin 1) s r l))
/-- One block's count of entries of y truncating to 0. -/
def partZeroY (x1 : Vec Ideal S1x32x128x128 .f32) : EReal :=
  ∑ s : Fin 32, ∑ r : Fin 128, ∑ l : Fin 128, Cert.Spec.zeroY (x1 (ix4 (0 : Fin 1) s r l))

section Values
variable (c : Dev nD) (i : grid0.Coords) (a2 : Memref sig .tc .vmem S1x32x128x128 .f32) (h2 : a2.IsWhole)
    (a3 : Memref sig .tc .vmem S1x32x128x128 .f32) (h3 : a3.IsWhole) (a4 : Memref sig .tc .vmem S1x1x128 .f32) (h4 : a4.IsWhole)
    (a5 : Memref sig .tc .vmem S1x1x128 .f32) (h5 : a5.IsWhole) (a6 : Memref sig .tc .vmem S1x1x128 .f32) (h6 : a6.IsWhole)
    (x0 x1 : Vec Ideal S1x32x128x128 .f32) (j : Fin 128)

theorem val_A_2 (hc : cond0_0 i) :
    out0_A_2 (F := Ideal) c i a2 h2 a3 h3 a4 h4 a5 h5 a6 h6 hc x0 x1 (ix3 (0 : Fin 1) (0 : Fin 1) j) = 0 + partBce x0 x1 :=
  (congrFun (out_A_2 (F := Ideal) c i a2 h2 a3 h3 a4 h4 a5 h5 a6 h6 hc x0 x1) _).trans
    ((Cert.Payload.pay_bce x0 x1 (k0_pay1 (F := Ideal)) j).trans (congrArg (· + partBce x0 x1) (Cert.Payload.zero_block j)))
theorem val_A_3 (hc : cond0_0 i) :
    out0_A_3 (F := Ideal) c i a2 h2 a3 h3 a4 h4 a5 h5 a6 h6 hc x0 x1 (ix3 (0 : Fin 1) (0 : Fin 1) j) = 0 + partLowX x0 :=
  (congrFun (out_A_3 (F := Ideal) c i a2 h2 a3 h3 a4 h4 a5 h5 a6 h6 hc x0 x1) _).trans
    ((Cert.Payload.pay_lowX x0 (k0_pay2 (F := Ideal)) j).trans (congrArg (· + partLowX x0) (Cert.Payload.zero_block2 j)))
theorem val_A_4 (hc : cond0_0 i) :
    out0_A_4 (F := Ideal) c i a2 h2 a3 h3 a4 h4 a5 h5 a6 h6 hc x0 x1 (ix3 (0 : Fin 1) (0 : Fin 1) j) = 0 + partZeroY x1 :=
  (congrFun (out_A_4 (F := Ideal) c i a2 h2 a3 h3 a4 h4 a5 h5 a6 h6 hc x0 x1) _).trans
    ((Cert.Payload.pay_zeroY x1 (k0_pay3 (F := Ideal)) j).trans (congrArg (· + partZeroY x1) (Cert.Payload.zero_block3 j)))

variable (xo2 xo3 xo4 : Vec Ideal S1x1x128 .f32)
theorem val_B_2 (hc : ¬cond0_0 i) :
    out0_B_2 (F := Ideal) c i a2 h2 a3 h3 a4 h4 a5 h5 a6 h6 hc x0 x1 xo2 xo3 xo4 (ix3 (0 : Fin 1) (0 : Fin 1) j)
      = xo2 (ix3 (0 : Fin 1) (0 : Fin 1) j) + partBce x0 x1 :=
  (congrFun (out_B_2 (F := Ideal) c i a2 h2 a3 h3 a4 h4 a5 h5 a6 h6 hc x0 x1 xo2 xo3 xo4) _).trans (Cert.Payload.pay_bce x0 x1 xo2 j)
theorem val_B_3 (hc : ¬cond0_0 i) :
    out0_B_3 (F := Ideal) c i a2 h2 a3 h3 a4 h4 a5 h5 a6 h6 hc x0 x1 xo2 xo3 xo4 (ix3 (0 : Fin 1) (0 : Fin 1) j)
      = xo3 (ix3 (0 : Fin 1) (0 : Fin 1) j) + partLowX x0 :=
  (congrFun (out_B_3 (F := Ideal) c i a2 h2 a3 h3 a4 h4 a5 h5 a6 h6 hc x0 x1 xo2 xo3 xo4) _).trans (Cert.Payload.pay_lowX x0 xo3 j)
theorem val_B_4 (hc : ¬cond0_0 i) :
    out0_B_4 (F := Ideal) c i a2 h2 a3 h3 a4 h4 a5 h5 a6 h6 hc x0 x1 xo2 xo3 xo4 (ix3 (0 : Fin 1) (0 : Fin 1) j)
      = xo4 (ix3 (0 : Fin 1) (0 : Fin 1) j) + partZeroY x1 :=
  (congrFun (out_B_4 (F := Ideal) c i a2 h2 a3 h3 a4 h4 a5 h5 a6 h6 hc x0 x1 xo2 xo3 xo4) _).trans (Cert.Payload.pay_zeroY x1 xo4 j)
end Values

/-- The running total of per-point amounts `P`, restarted from zero at every point divisible by 4. -/
def chain (P : Fin cfg0.N → EReal) : (n : ℕ) → n < cfg0.N → EReal
  | 0, h => 0 + P ⟨0, h⟩
  | n + 1, h => if (n + 1) % 4 = 0 then 0 + P ⟨n + 1, h⟩ else chain P n (Nat.lt_of_succ_lt h) + P ⟨n + 1, h⟩

theorem chain_restart (P : Fin cfg0.N → EReal) (n : ℕ) (h : n + 1 < cfg0.N) (h0 : (n + 1) % 4 = 0) :
    chain P (n + 1) h = 0 + P ⟨n + 1, h⟩ := if_pos h0
theorem chain_step (P : Fin cfg0.N → EReal) (n : ℕ) (h : n + 1 < cfg0.N) (h0 : ¬(n + 1) % 4 = 0) :
    chain P (n + 1) h = chain P n (Nat.lt_of_succ_lt h) + P ⟨n + 1, h⟩ := if_neg h0

variable (m : (ℓ : Loc nD τ sig) → Buf (Elt Ideal) ℓ)

/-- The two input blocks at a point. -/
abbrev blkX (c : Dev nD) (t : Fin cfg0.N) : Vec Ideal S1x32x128x128 .f32 := iblk m c 0 t
abbrev blkY (c : Dev nD) (t : Fin cfg0.N) : Vec Ideal S1x32x128x128 .f32 := iblk m c 1 t

/-- At a point divisible by 4 each lane of the three blocks holds zero plus the block's partial sum. -/
theorem at_A (c : Dev nD) (t : Fin cfg0.N) (h0 : t.val % 4 = 0) (j : Fin 128) :
    (outsAt0 m c t.val t.isLt).1 (ix3 (0 : Fin 1) (0 : Fin 1) j) = 0 + partBce (blkX m c t) (blkY m c t)
    ∧ (outsAt0 m c t.val t.isLt).2.1 (ix3 (0 : Fin 1) (0 : Fin 1) j) = 0 + partLowX (blkX m c t)
    ∧ (outsAt0 m c t.val t.isLt).2.2 (ix3 (0 : Fin 1) (0 : Fin 1) j) = 0 + partZeroY (blkY m c t) := by
  rw [outsAt0_A m c t h0]
  dsimp only
  refine ⟨?_, ?_, ?_⟩
  · exact val_A_2 c (grid0.coords t) (ms0_0 t) (hs0_0 t) (ms0_1 t) (hs0_1 t) (ms0_2 t) (hs0_2 t) (ms0_3 t) (hs0_3 t) (ms0_4 t) (hs0_4 t) (blkX m c t) (blkY m c t) j ((hcond0_0 t).mpr h0)
  · exact val_A_3 c (grid0.coords t) (ms0_0 t) (hs0_0 t) (ms0_1 t) (hs0_1 t) (ms0_2 t) (hs0_2 t) (ms0_3 t) (hs0_3 t) (ms0_4 t) (hs0_4 t) (blkX m c t) (blkY m c t) j ((hcond0_0 t).mpr h0)
  · exact val_A_4 c (grid0.coords t) (ms0_0 t) (hs0_0 t) (ms0_1 t) (hs0_1 t) (ms0_2 t) (hs0_2 t) (ms0_3 t) (hs0_3 t) (ms0_4 t) (hs0_4 t) (blkX m c t) (blkY m c t) j ((hcond0_0 t).mpr h0)

/-- At any other point each lane holds what the point before left plus the block's partial sum. -/
theorem at_B (c : Dev nD) (t : Fin cfg0.N) (h0 : ¬t.val % 4 = 0) (j : Fin 128) :
    (outsAt0 m c t.val t.isLt).1 (ix3 (0 : Fin 1) (0 : Fin 1) j)
      = (outsAt0 m c (t.val - 1) (Nat.lt_of_le_of_lt (Nat.sub_le _ _) t.isLt)).1 (ix3 (0 : Fin 1) (0 : Fin 1) j) + partBce (blkX m c t) (blkY m c t)
    ∧ (outsAt0 m c t.val t.isLt).2.1 (ix3 (0 : Fin 1) (0 : Fin 1) j)
      = (outsAt0 m c (t.val - 1) (Nat.lt_of_le_of_lt (Nat.sub_le _ _) t.isLt)).2.1 (ix3 (0 : Fin 1) (0 : Fin 1) j) + partLowX (blkX m c t)
    ∧ (outsAt0 m c t.val t.isLt).2.2 (ix3 (0 : Fin 1) (0 : Fin 1) j)
      = (outsAt0 m c (t.val - 1) (Nat.lt_of_le_of_lt (Nat.sub_le _ _) t.isLt)).2.2 (ix3 (0 : Fin 1) (0 : Fin 1) j) + partZeroY (blkY m c t) := by
  rw [outsAt0_B m c t h0]
  dsimp only
  refine ⟨?_, ?_, ?_⟩
  · exact val_B_2 c (grid0.coords t) (ms0_0 t) (hs0_0 t) (ms0_1 t) (hs0_1 t) (ms0_2 t) (hs0_2 t) (ms0_3 t) (hs0_3 t) (ms0_4 t) (hs0_4 t) (blkX m c t) (blkY m c t) j (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h))
  · exact val_B_3 c (grid0.coords t) (ms0_0 t) (hs0_0 t) (ms0_1 t) (hs0_1 t) (ms0_2 t) (hs0_2 t) (ms0_3 t) (hs0_3 t) (ms0_4 t) (hs0_4 t) (blkX m c t) (blkY m c t) j (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h))
  · exact val_B_4 c (grid0.coords t) (ms0_0 t) (hs0_0 t) (ms0_1 t) (hs0_1 t) (ms0_2 t) (hs0_2 t) (ms0_3 t) (hs0_3 t) (ms0_4 t) (hs0_4 t) (blkX m c t) (blkY m c t) j (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h))

/-- After point `n` every lane of the three output blocks holds the running total of its partial sums. -/
theorem outsAt_eq (c : Dev nD) : ∀ (n : ℕ) (h : n < cfg0.N) (j : Fin 128),
    (outsAt0 m c n h).1 (ix3 (0 : Fin 1) (0 : Fin 1) j) = chain (fun t => partBce (blkX m c t) (blkY m c t)) n h
    ∧ (outsAt0 m c n h).2.1 (ix3 (0 : Fin 1) (0 : Fin 1) j) = chain (fun t => partLowX (blkX m c t)) n h
    ∧ (outsAt0 m c n h).2.2 (ix3 (0 : Fin 1) (0 : Fin 1) j) = chain (fun t => partZeroY (blkY m c t)) n h
  | 0, h, j => at_A m c ⟨0, h⟩ (Nat.zero_mod 4) j
  | n + 1, h, j => by
    by_cases h0 : (n + 1) % 4 = 0
    · rw [chain_restart _ n h h0, chain_restart _ n h h0, chain_restart _ n h h0]
      exact at_A m c ⟨n + 1, h⟩ h0 j
    · have ih := outsAt_eq c n (Nat.lt_of_succ_lt h) j
      have hb := at_B m c ⟨n + 1, h⟩ h0 j
      rw [chain_step _ n h h0, chain_step _ n h h0, chain_step _ n h h0, ← ih.1, ← ih.2.1, ← ih.2.2]
      exact hb

end Cert.KernelIdeal.Acc

end
-- ==== Proof.Final.lean ====
/-
  The three output arrays after the run.

  Output arrays have shape [20, 1, 128]; the block of a grid point (b, chunk) is row b, whatever the chunk, so
  the block stays in its buffer over a sample's four chunks and is written back once, after the last one
  (the points 4b + 3). What is written back is the running total after that point, the same number in every
  lane; the 20 written-back rows tile the array.
-/
import proofs.«100967_j8254927143083_2_alg».proof.Proof.Acc
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Acc

/-- The running total does not depend on how the point's number is written. -/
theorem chain_congr (P : Fin cfg0.N → EReal) {n n' : ℕ} (e : n = n') (h : n < cfg0.N) (h' : n' < cfg0.N) :
    chain P n h = chain P n' h' := by subst e; rfl

/-- Sample b's total: the running total after the sample's last chunk. -/
def totalAt (P : Fin cfg0.N → EReal) (b : ℕ) : EReal :=
  if h : 4 * b + 3 < cfg0.N then chain P (4 * b + 3) h else 0

/-- An output array whose row b holds sample b's total in every lane. -/
def G (P : Fin cfg0.N → EReal) : S20x1x128.Idx → EReal := fun i => totalAt P (i 0).val

variable (m : (ℓ : Loc nD τ sig) → Buf (Elt Ideal) ℓ)

/-- The three per-point amounts. -/
def P2 (c : Dev nD) : Fin cfg0.N → EReal := fun t => partBce (blkX m c t) (blkY m c t)
def P3 (c : Dev nD) : Fin cfg0.N → EReal := fun t => partLowX (blkX m c t)
def P4 (c : Dev nD) : Fin cfg0.N → EReal := fun t => partZeroY (blkY m c t)

/-- The outputs' block index at a point is (sample, 0, 0), decided over the grid. -/
theorem idx_out : ∀ t : Fin cfg0.N,
    win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0 :=
  (by decide +kernel : ∀ t : Fin grid0.N, _)

/-! ## Output 2 -/

/-- An index of output 2's array lies in point `t`'s block iff each coordinate is in the block's range on its axis. -/
theorem mem_blk2 (t : Fin cfg0.N) (i : S20x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v2_0).slice (win0_2.rect t)).set ↔ _
  rw [View.set_slice_whole, Rect.mem_set_unit]
  exact Iff.rfl

/-- What the last chunk of a sample writes back is that sample's row of the totals. -/
theorem flushed2 (c : Dev nD) (t : Fin cfg0.N) (hf : (cfg0.win 2).flush t = true) :
    (dats m 0 c).flushed 2 t = ((cfg0.win 2).blk t).view.read (Elt Ideal) (G (P2 m c)) := by
  have h3 : t.val % 4 = 3 := (flush0_2 t).mp hf
  have hN : t.val < 80 := lt_of_lt_of_eq t.isLt (show cfg0.N = 80 from N_0)
  obtain ⟨e0, e1, e2, -⟩ := idx_out t
  show (cfg0.win 2).cut (grid0.coords t) ((dats m 0 c).after 2 t) = _
  rw [after0_2]
  funext y
  show (outsAt0 m c t.val t.isLt).1 y = totalAt (P2 m c) ((((cfg0.win 2).blk t).view.emb y) 0).val
  have hv : ((((cfg0.win 2).blk t).view.emb y) 0).val = t.val / 4 := by
    show win0_2.index t (0 : Fin 3) * 1 + 1 * (y 0).val = _
    have hy0 : (y 0).val = 0 := Nat.lt_one_iff.mp (y 0).isLt
    omega
  obtain ⟨l, rfl⟩ : ∃ l : Fin 128, y = ix3 (0 : Fin 1) (0 : Fin 1) l :=
    ⟨y 2, funext fun a => by
      match a with
      | ⟨0, _⟩ => exact Fin.ext (Nat.lt_one_iff.mp (y 0).isLt)
      | ⟨1, _⟩ => exact Fin.ext (Nat.lt_one_iff.mp (y 1).isLt)
      | ⟨2, _⟩ => rfl⟩
  rw [hv]
  refine ((outsAt_eq m c t.val t.isLt l).1).trans ?_
  unfold totalAt
  rw [dif_pos (lt_of_lt_of_eq (show 4 * (t.val / 4) + 3 < 80 by omega) (show (80 : ℕ) = cfg0.N from N_0.symm))]
  exact chain_congr _ (by omega) _ _

/-- Every index of output 2's array lies in the block its sample's last chunk writes back. -/
theorem cover2 (c : Dev nD) (i : S20x1x128.Idx) :
    ∃ t : Fin cfg0.N, (cfg0.win 2).flush t = true ∧ i ∈ ((cfg0.win 2).blk t).view.set := by
  have hi0 : (i 0).val < 20 := (i 0).isLt
  have hi1 : (i 1).val < 1 := (i 1).isLt
  have hi2 : (i 2).val < 128 := (i 2).isLt
  have hlt : 4 * (i 0).val + 3 < cfg0.N := by rw [show cfg0.N = 80 from N_0]; omega
  refine ⟨⟨4 * (i 0).val + 3, hlt⟩, (flush0_2 _).mpr (by show (4 * (i 0).val + 3) % 4 = 3; omega), ?_⟩
  obtain ⟨e0, e1, e2, -⟩ := idx_out ⟨4 * (i 0).val + 3, hlt⟩
  have hv : (⟨4 * (i 0).val + 3, hlt⟩ : Fin cfg0.N).val = 4 * (i 0).val + 3 := rfl
  rw [mem_blk2]
  intro a
  match a with
  | ⟨0, _⟩ => show win0_2.index ⟨4 * (i 0).val + 3, hlt⟩ (0 : Fin 3) * 1 ≤ (i 0).val ∧ (i 0).val < win0_2.index ⟨4 * (i 0).val + 3, hlt⟩ (0 : Fin 3) * 1 + 1; omega
  | ⟨1, _⟩ => show win0_2.index ⟨4 * (i 0).val + 3, hlt⟩ (1 : Fin 3) * 1 ≤ (i 1).val ∧ (i 1).val < win0_2.index ⟨4 * (i 0).val + 3, hlt⟩ (1 : Fin 3) * 1 + 1; omega
  | ⟨2, _⟩ => show win0_2.index ⟨4 * (i 0).val + 3, hlt⟩ (2 : Fin 3) * 128 ≤ (i 2).val ∧ (i 2).val < win0_2.index ⟨4 * (i 0).val + 3, hlt⟩ (2 : Fin 3) * 128 + 128; omega

/-- Output 2's array after the run: row b holds sample b's total in every lane. -/
theorem final2 (c : Dev nD) : (dats m 0 c).arrAt 2 cfg0.N = G (P2 m c) :=
  (dats m 0 c).arrAt_eq_of_cover 2 (G (P2 m c)) (flushed2 m c) (cover2 c)

/-! ## Output 3 -/

/-- An index of output 3's array lies in point `t`'s block iff each coordinate is in the block's range on its axis. -/
theorem mem_blk3 (t : Fin cfg0.N) (i : S20x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v2_1).slice (win0_3.rect t)).set ↔ _
  rw [View.set_slice_whole, Rect.mem_set_unit]
  exact Iff.rfl

/-- What the last chunk of a sample writes back is that sample's row of the totals. -/
theorem flushed3 (c : Dev nD) (t : Fin cfg0.N) (hf : (cfg0.win 3).flush t = true) :
    (dats m 0 c).flushed 3 t = ((cfg0.win 3).blk t).view.read (Elt Ideal) (G (P3 m c)) := by
  have h3 : t.val % 4 = 3 := (flush0_3 t).mp hf
  have hN : t.val < 80 := lt_of_lt_of_eq t.isLt (show cfg0.N = 80 from N_0)
  obtain ⟨-, -, -, e0, e1, e2, -⟩ := idx_out t
  show (cfg0.win 3).cut (grid0.coords t) ((dats m 0 c).after 3 t) = _
  rw [after0_3]
  funext y
  show (outsAt0 m c t.val t.isLt).2.1 y = totalAt (P3 m c) ((((cfg0.win 3).blk t).view.emb y) 0).val
  have hv : ((((cfg0.win 3).blk t).view.emb y) 0).val = t.val / 4 := by
    show win0_3.index t (0 : Fin 3) * 1 + 1 * (y 0).val = _
    have hy0 : (y 0).val = 0 := Nat.lt_one_iff.mp (y 0).isLt
    omega
  obtain ⟨l, rfl⟩ : ∃ l : Fin 128, y = ix3 (0 : Fin 1) (0 : Fin 1) l :=
    ⟨y 2, funext fun a => by
      match a with
      | ⟨0, _⟩ => exact Fin.ext (Nat.lt_one_iff.mp (y 0).isLt)
      | ⟨1, _⟩ => exact Fin.ext (Nat.lt_one_iff.mp (y 1).isLt)
      | ⟨2, _⟩ => rfl⟩
  rw [hv]
  refine ((outsAt_eq m c t.val t.isLt l).2.1).trans ?_
  unfold totalAt
  rw [dif_pos (lt_of_lt_of_eq (show 4 * (t.val / 4) + 3 < 80 by omega) (show (80 : ℕ) = cfg0.N from N_0.symm))]
  exact chain_congr _ (by omega) _ _

/-- Every index of output 3's array lies in the block its sample's last chunk writes back. -/
theorem cover3 (c : Dev nD) (i : S20x1x128.Idx) :
    ∃ t : Fin cfg0.N, (cfg0.win 3).flush t = true ∧ i ∈ ((cfg0.win 3).blk t).view.set := by
  have hi0 : (i 0).val < 20 := (i 0).isLt
  have hi1 : (i 1).val < 1 := (i 1).isLt
  have hi2 : (i 2).val < 128 := (i 2).isLt
  have hlt : 4 * (i 0).val + 3 < cfg0.N := by rw [show cfg0.N = 80 from N_0]; omega
  refine ⟨⟨4 * (i 0).val + 3, hlt⟩, (flush0_3 _).mpr (by show (4 * (i 0).val + 3) % 4 = 3; omega), ?_⟩
  obtain ⟨-, -, -, e0, e1, e2, -⟩ := idx_out ⟨4 * (i 0).val + 3, hlt⟩
  have hv : (⟨4 * (i 0).val + 3, hlt⟩ : Fin cfg0.N).val = 4 * (i 0).val + 3 := rfl
  rw [mem_blk3]
  intro a
  match a with
  | ⟨0, _⟩ => show win0_3.index ⟨4 * (i 0).val + 3, hlt⟩ (0 : Fin 3) * 1 ≤ (i 0).val ∧ (i 0).val < win0_3.index ⟨4 * (i 0).val + 3, hlt⟩ (0 : Fin 3) * 1 + 1; omega
  | ⟨1, _⟩ => show win0_3.index ⟨4 * (i 0).val + 3, hlt⟩ (1 : Fin 3) * 1 ≤ (i 1).val ∧ (i 1).val < win0_3.index ⟨4 * (i 0).val + 3, hlt⟩ (1 : Fin 3) * 1 + 1; omega
  | ⟨2, _⟩ => show win0_3.index ⟨4 * (i 0).val + 3, hlt⟩ (2 : Fin 3) * 128 ≤ (i 2).val ∧ (i 2).val < win0_3.index ⟨4 * (i 0).val + 3, hlt⟩ (2 : Fin 3) * 128 + 128; omega

/-- Output 3's array after the run: row b holds sample b's total in every lane. -/
theorem final3 (c : Dev nD) : (dats m 0 c).arrAt 3 cfg0.N = G (P3 m c) :=
  (dats m 0 c).arrAt_eq_of_cover 3 (G (P3 m c)) (flushed3 m c) (cover3 c)

/-! ## Output 4 -/

/-- An index of output 4's array lies in point `t`'s block iff each coordinate is in the block's range on its axis. -/
theorem mem_blk4 (t : Fin cfg0.N) (i : S20x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v2_2).slice (win0_4.rect t)).set ↔ _
  rw [View.set_slice_whole, Rect.mem_set_unit]
  exact Iff.rfl

/-- What the last chunk of a sample writes back is that sample's row of the totals. -/
theorem flushed4 (c : Dev nD) (t : Fin cfg0.N) (hf : (cfg0.win 4).flush t = true) :
    (dats m 0 c).flushed 4 t = ((cfg0.win 4).blk t).view.read (Elt Ideal) (G (P4 m c)) := by
  have h3 : t.val % 4 = 3 := (flush0_4 t).mp hf
  have hN : t.val < 80 := lt_of_lt_of_eq t.isLt (show cfg0.N = 80 from N_0)
  obtain ⟨-, -, -, -, -, -, e0, e1, e2⟩ := idx_out t
  show (cfg0.win 4).cut (grid0.coords t) ((dats m 0 c).after 4 t) = _
  rw [after0_4]
  funext y
  show (outsAt0 m c t.val t.isLt).2.2 y = totalAt (P4 m c) ((((cfg0.win 4).blk t).view.emb y) 0).val
  have hv : ((((cfg0.win 4).blk t).view.emb y) 0).val = t.val / 4 := by
    show win0_4.index t (0 : Fin 3) * 1 + 1 * (y 0).val = _
    have hy0 : (y 0).val = 0 := Nat.lt_one_iff.mp (y 0).isLt
    omega
  obtain ⟨l, rfl⟩ : ∃ l : Fin 128, y = ix3 (0 : Fin 1) (0 : Fin 1) l :=
    ⟨y 2, funext fun a => by
      match a with
      | ⟨0, _⟩ => exact Fin.ext (Nat.lt_one_iff.mp (y 0).isLt)
      | ⟨1, _⟩ => exact Fin.ext (Nat.lt_one_iff.mp (y 1).isLt)
      | ⟨2, _⟩ => rfl⟩
  rw [hv]
  refine ((outsAt_eq m c t.val t.isLt l).2.2).trans ?_
  unfold totalAt
  rw [dif_pos (lt_of_lt_of_eq (show 4 * (t.val / 4) + 3 < 80 by omega) (show (80 : ℕ) = cfg0.N from N_0.symm))]
  exact chain_congr _ (by omega) _ _

/-- Every index of output 4's array lies in the block its sample's last chunk writes back. -/
theorem cover4 (c : Dev nD) (i : S20x1x128.Idx) :
    ∃ t : Fin cfg0.N, (cfg0.win 4).flush t = true ∧ i ∈ ((cfg0.win 4).blk t).view.set := by
  have hi0 : (i 0).val < 20 := (i 0).isLt
  have hi1 : (i 1).val < 1 := (i 1).isLt
  have hi2 : (i 2).val < 128 := (i 2).isLt
  have hlt : 4 * (i 0).val + 3 < cfg0.N := by rw [show cfg0.N = 80 from N_0]; omega
  refine ⟨⟨4 * (i 0).val + 3, hlt⟩, (flush0_4 _).mpr (by show (4 * (i 0).val + 3) % 4 = 3; omega), ?_⟩
  obtain ⟨-, -, -, -, -, -, e0, e1, e2⟩ := idx_out ⟨4 * (i 0).val + 3, hlt⟩
  have hv : (⟨4 * (i 0).val + 3, hlt⟩ : Fin cfg0.N).val = 4 * (i 0).val + 3 := rfl
  rw [mem_blk4]
  intro a
  match a with
  | ⟨0, _⟩ => show win0_4.index ⟨4 * (i 0).val + 3, hlt⟩ (0 : Fin 3) * 1 ≤ (i 0).val ∧ (i 0).val < win0_4.index ⟨4 * (i 0).val + 3, hlt⟩ (0 : Fin 3) * 1 + 1; omega
  | ⟨1, _⟩ => show win0_4.index ⟨4 * (i 0).val + 3, hlt⟩ (1 : Fin 3) * 1 ≤ (i 1).val ∧ (i 1).val < win0_4.index ⟨4 * (i 0).val + 3, hlt⟩ (1 : Fin 3) * 1 + 1; omega
  | ⟨2, _⟩ => show win0_4.index ⟨4 * (i 0).val + 3, hlt⟩ (2 : Fin 3) * 128 ≤ (i 2).val ∧ (i 2).val < win0_4.index ⟨4 * (i 0).val + 3, hlt⟩ (2 : Fin 3) * 128 + 128; omega

/-- Output 4's array after the run: row b holds sample b's total in every lane. -/
theorem final4 (c : Dev nD) : (dats m 0 c).arrAt 4 cfg0.N = G (P4 m c) :=
  (dats m 0 c).arrAt_eq_of_cover 4 (G (P4 m c)) (flushed4 m c) (cover4 c)

end Cert.KernelIdeal.Final

end
-- ==== Proof.Tail.lean ====
/-
  The scalar arithmetic that follows the three per-sample sums.

  From the vectors of per-sample sums (20 entries each) the program forms
    pore    = ( sum over the samples of (sx / 2^21 - sy / 2^21)^2 ) / 20,
    mse     = ( - sum over the samples of bce ) / (20 * 2^21),
  and returns pore + mse and pore. The literal words are the f32 patterns of 2^21, 20 * 2^21, 20 and 0.
-/
import proofs.«100967_j8254927143083_2_alg».proof.Proof.Gen.KernelIdeal
import Idealize.ShloMosaic.PureOps.Ideal

noncomputable section

namespace Cert.KernelIdeal.Tail

open Idealize.ShloMosaic Cert.KernelIdeal Cert.KernelIdeal.Facts₀

/-- A per-sample count divided by the number of entries of a sample. -/
def frac (s : FVec Ideal S20 .f32) : FVec Ideal S20 .f32 :=
  Host.divf (F := Ideal) s (broadcastInDim S20 ![] bcast_S_S20 (constant (F := Ideal) S_ .f32 0x4A000000#32))

/-- The mean over the samples of the squared difference of the two fractions. -/
def pore (sx sy : FVec Ideal S20 .f32) : FVec Ideal S_ .f32 :=
  Host.divf (F := Ideal)
    (Host.reduceAdd (F := Ideal) (mulf (subf (frac sx) (frac sy)) (subf (frac sx) (frac sy)))
      (constant (F := Ideal) S_ .f32 0x00000000#32) reducesTo_S20_S_d0 h_S_)
    (constant (F := Ideal) S_ .f32 0x41A00000#32)

/-- The negated sum of the per-sample cross-entropy sums, divided by the number of all entries. -/
def mse (bce : FVec Ideal S20 .f32) : FVec Ideal S_ .f32 :=
  Host.divf (F := Ideal)
    (Host.negf (F := Ideal) (Host.reduceAdd (F := Ideal) bce (constant (F := Ideal) S_ .f32 0x00000000#32) reducesTo_S20_S_d0 h_S_))
    (constant (F := Ideal) S_ .f32 0x4C200000#32)

/-- The first result: the two added. -/
def total (bce sx sy : FVec Ideal S20 .f32) : FVec Ideal S_ .f32 :=
  addf (pore sx sy) (mse bce)

end Cert.KernelIdeal.Tail

end
-- ==== Proof.KRun.lean ====
/-
  The kernel program's run, read to its two results.

  After the pallas_call the program takes column (·, 0, 0) of each output array, one number per sample, and
  applies the scalar arithmetic of Tail.lean. The region's arrays end at the totals of Final.lean, so the two
  results are that arithmetic of the three vectors of per-sample totals.
-/
import proofs.«100967_j8254927143083_2_alg».proof.Proof.Final
import proofs.«100967_j8254927143083_2_alg».proof.Proof.Tail
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.Acc Cert.KernelIdeal.Final
open Idealize.ShloMosaic.StableHlo

/-- Column (·, 0, 0) of an output array as a vector over the samples. -/
def rowsOf (A : S20x1x128.Idx → EReal) : FVec Ideal S20 .f32 :=
  shapeCast S20 (extractStridedSlice S20x1x1 ![0, 0, 0] A Facts₀.slices_S20x1x128_S20x1x1_0_0_0) Facts₀.shapeCasts_S20x1x1_S20

/-- Its entry for sample b is the array's entry (b, 0, 0). -/
theorem rowsOf_apply (A : S20x1x128.Idx → EReal) (b : Fin 20) :
    rowsOf A (ix1 b) = A (ix3 b (0 : Fin 1) (0 : Fin 128)) := by
  unfold rowsOf
  rw [shapeCast_apply _ Facts₀.shapeCasts_S20x1x1_S20 (ix1 b) (ix3 b (0 : Fin 1) (0 : Fin 1))
    (by rw [Shape.rowMajor_val_three, Shape.rowMajor_val_one]; show (b.val * 1 + 0) * 1 + 0 = b.val; omega)]
  unfold extractStridedSlice
  refine congrArg A (funext fun a => Fin.ext ?_)
  match a with
  | ⟨0, _⟩ => show 0 + b.val = b.val; omega
  | ⟨1, _⟩ => rfl
  | ⟨2, _⟩ => rfl

/-- For the array of totals that entry is the running total after the sample's last chunk. -/
theorem rowsOf_G (P : Fin cfg0.N → EReal) (b : Fin 20) (h : 4 * b.val + 3 < cfg0.N) :
    rowsOf (G P) (ix1 b) = chain P (4 * b.val + 3) h := by
  rw [rowsOf_apply]
  show totalAt P b.val = _
  unfold totalAt
  rw [dif_pos h]

variable (m : (ℓ : Loc nD τ sig) → Buf (Elt Ideal) ℓ) (ρ : Dev nD → PrngReg)

/-- The region leaves each output array at its totals. -/
theorem arr2 (c : Dev nD) :
    Pipeline.withArrays (cfgs 0).spec c (V0 m c) (fun w => (dats m 0 c).arrAt w (cfgs 0).N) (Proc.devRef .tc main_v2_0) = G (P2 m c) :=
  (Pipeline.withArrays_arr spec0 launch0.win.arr_inj c _ _ 2).trans (final2 m c)
theorem arr3 (c : Dev nD) :
    Pipeline.withArrays (cfgs 0).spec c (V0 m c) (fun w => (dats m 0 c).arrAt w (cfgs 0).N) (Proc.devRef .tc main_v2_1) = G (P3 m c) :=
  (Pipeline.withArrays_arr spec0 launch0.win.arr_inj c _ _ 3).trans (final3 m c)
theorem arr4 (c : Dev nD) :
    Pipeline.withArrays (cfgs 0).spec c (V0 m c) (fun w => (dats m 0 c).arrAt w (cfgs 0).N) (Proc.devRef .tc main_v2_2) = G (P4 m c) :=
  (Pipeline.withArrays_arr spec0 launch0.win.arr_inj c _ _ 4).trans (final4 m c)

set_option maxHeartbeats 2000000 in
/-- The second result. -/
theorem tail19 (c : Dev nD) :
    Pipeline.afterTail₀ cfgs (dats m) 0 (V0 m) [hostOps1] c main_v19
      = Tail.pore (rowsOf (G (P3 m c))) (rowsOf (G (P4 m c))) := by
  unfold Pipeline.afterTail₀
  show StableHlo.after hostOps1 _ (Proc.devRef .tc main_v19) = _
  after_results
  rw [arr3 m c, arr4 m c]
  unfold Tail.pore Tail.frac rowsOf
  rfl

set_option maxHeartbeats 4000000 in
/-- The first result. -/
theorem tail20 (c : Dev nD) :
    Pipeline.afterTail₀ cfgs (dats m) 0 (V0 m) [hostOps1] c main_v20
      = Tail.total (rowsOf (G (P2 m c))) (rowsOf (G (P3 m c))) (rowsOf (G (P4 m c))) := by
  unfold Pipeline.afterTail₀
  show StableHlo.after hostOps1 _ (Proc.devRef .tc main_v20) = _
  after_results
  rw [arr2 m c, arr3 m c, arr4 m c]
  unfold Tail.total Tail.pore Tail.mse Tail.frac rowsOf
  rfl

/-- Every weakly fair execution of the kernel program ends with its two results at the scalar arithmetic of the
    per-sample totals and its arguments unchanged. -/
theorem run : θ_run defs (onTc (τ := τ) (main (F := Ideal))) ⟨m, fun _ => 0, ρ⟩ (fun r => ∀ c : Dev nD,
      r.2.mem ((c.tc : Thread nD τ).loc main_v20) = Tail.total (rowsOf (G (P2 m c))) (rowsOf (G (P3 m c))) (rowsOf (G (P4 m c)))
      ∧ r.2.mem ((c.tc : Thread nD τ).loc main_v19) = Tail.pore (rowsOf (G (P3 m c))) (rowsOf (G (P4 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v20 (Pipeline.mem_restRefs_of main_v20 (by decide) (by decide))).trans (tail20 m c),
      ((h c).2 main_v19 (Pipeline.mem_restRefs_of main_v19 (by decide) (by decide))).trans (tail19 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KRun

end
-- ==== Proof.Blocks.lean ====
/-
  The running totals at a sample's last grid point are the sums over the sample's entries.

  The region finds each input [20, 1, 128, 128, 128] viewed as [20, 128, 128, 128] (the unit axis dropped: entry
  (b, d, r, l) of the view is entry (b, 0, d, r, l) of the input). Grid point t reads, of each view, the block at
  block index (t / 4, t % 4, 0, 0) with block sizes (1, 32, 128, 128): entry (0, s, r, l) of the block at point
  4b + k is the input at (b, 0, 32k + s, r, l). So one block's triple sum is the sum over the planes of chunk k of
  sample b, and the running total three points after 4b, which restarted at 4b, is the four chunks' sums added in
  order: the sum over the chunks, the planes of a chunk, the rows and the lanes of sample b.
-/
import proofs.«100967_j8254927143083_2_alg».proof.Proof.Acc
import proofs.«100967_j8254927143083_2_alg».proof.Proof.Gen.KernelIdeal.Frame
import proofs.«100967_j8254927143083_2_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ) (c : Dev nD)

/-! ## The arrays the region finds: the inputs with the unit axis dropped -/

/-- The first window's array is the first input viewed [20, 128, 128, 128]. -/
theorem V_v0 : (V m c main_v0 : S20x128x128x128.Idx → EReal)
    = shapeCast S20x128x128x128 (m ((c : Thread nD τ).loc main_arg0)) Facts₀.shapeCasts_S20x1x128x128x128_S20x128x128x128 := by
  show StableHlo.after hostOps0 (fun b => m (c, b)) (Proc.devRef .tc main_v0) = _
  after_results
  rfl

/-- The second window's array is the second input viewed [20, 128, 128, 128]. -/
theorem V_v1 : (V m c main_v1 : S20x128x128x128.Idx → EReal)
    = shapeCast S20x128x128x128 (m ((c : Thread nD τ).loc main_arg1)) Facts₀.shapeCasts_S20x1x128x128x128_S20x128x128x128 := by
  show StableHlo.after hostOps0 (fun b => m (c, b)) (Proc.devRef .tc main_v1) = _
  after_results
  rfl

/-- [20, 1, 128, 128, 128] viewed [20, 128, 128, 128] reads (b, d, r, l) at (b, 0, d, r, l). -/
theorem drop_unit_apply {α : Type} (X : S20x1x128x128x128.Idx → α) (h : S20x1x128x128x128.ShapeCasts S20x128x128x128)
    (b : Fin 20) (d r l : Fin 128) :
    shapeCast S20x128x128x128 X h (ix4 b d r l) = X (ix5 b (0 : Fin 1) d r l) :=
  shapeCast_apply X h _ _ (by
    rw [Shape.rowMajor_val_five, Shape.rowMajor_val_four]
    show (((b.val * 1 + 0) * 128 + d.val) * 128 + r.val) * 128 + l.val = ((b.val * 128 + d.val) * 128 + r.val) * 128 + l.val
    omega)

/-! ## Where a point's blocks lie -/

/-- Point t reads block (t / 4, t % 4, 0, 0) of the first array … -/
theorem index0 : ∀ t : Fin grid0.N, win0_0.index t (0 : Fin 4) = t.val / 4 ∧ win0_0.index t (1 : Fin 4) = t.val % 4
    ∧ win0_0.index t (2 : Fin 4) = 0 ∧ win0_0.index t (3 : Fin 4) = 0 := by decide +kernel
/-- … and of the second. -/
theorem index1 : ∀ t : Fin grid0.N, win0_1.index t (0 : Fin 4) = t.val / 4 ∧ win0_1.index t (1 : Fin 4) = t.val % 4
    ∧ win0_1.index t (2 : Fin 4) = 0 ∧ win0_1.index t (3 : Fin 4) = 0 := by decide +kernel

/-- Entry (0, s, r, l) of the first input's block at point 4b + k is the input at (b, 0, 32k + s, r, l). -/
theorem blkX_apply (t : Fin cfg0.N) (b : Fin 20) (k : Fin 4) (ht : t.val = 4 * b.val + k.val)
    (s : Fin 32) (r l : Fin 128) :
    Acc.blkX m c t (ix4 (0 : Fin 1) s r l)
      = m ((c : Thread nD τ).loc main_arg0) (ix5 b (0 : Fin 1) (Cert.Spec.depth k s) r l) := by
  obtain ⟨h0, h1, h2, h3⟩ := index0 t
  have hb := b.isLt
  have hk := k.isLt
  have hs := s.isLt
  show iblk m c 0 t (ix4 (0 : Fin 1) s r l) = _
  unfold iblk
  rw [View.read_apply]
  show V m c main_v0 (((cfg0.win 0).blk t).view.emb (ix4 (0 : Fin 1) s r l)) = _
  rw [V_v0]
  refine Eq.trans (congrArg _ ?_) (drop_unit_apply _ _ b (Cert.Spec.depth k s) r l)
  funext a
  apply Fin.ext
  match a with
  | ⟨0, _⟩ =>
    show win0_0.index t 0 * 1 + 1 * 0 = b.val
    rw [h0]; omega
  | ⟨1, _⟩ =>
    show win0_0.index t 1 * 32 + 1 * s.val = 32 * k.val + s.val
    rw [h1]; omega
  | ⟨2, _⟩ =>
    show win0_0.index t 2 * 128 + 1 * r.val = r.val
    rw [h2]; omega
  | ⟨3, _⟩ =>
    show win0_0.index t 3 * 128 + 1 * l.val = l.val
    rw [h3]; omega

/-- The same for the second input. -/
theorem blkY_apply (t : Fin cfg0.N) (b : Fin 20) (k : Fin 4) (ht : t.val = 4 * b.val + k.val)
    (s : Fin 32) (r l : Fin 128) :
    Acc.blkY m c t (ix4 (0 : Fin 1) s r l)
      = m ((c : Thread nD τ).loc main_arg1) (ix5 b (0 : Fin 1) (Cert.Spec.depth k s) r l) := by
  obtain ⟨h0, h1, h2, h3⟩ := index1 t
  have hb := b.isLt
  have hk := k.isLt
  have hs := s.isLt
  show iblk m c 1 t (ix4 (0 : Fin 1) s r l) = _
  unfold iblk
  rw [View.read_apply]
  show V m c main_v1 (((cfg0.win 1).blk t).view.emb (ix4 (0 : Fin 1) s r l)) = _
  rw [V_v1]
  refine Eq.trans (congrArg _ ?_) (drop_unit_apply _ _ b (Cert.Spec.depth k s) r l)
  funext a
  apply Fin.ext
  match a with
  | ⟨0, _⟩ =>
    show win0_1.index t 0 * 1 + 1 * 0 = b.val
    rw [h0]; omega
  | ⟨1, _⟩ =>
    show win0_1.index t 1 * 32 + 1 * s.val = 32 * k.val + s.val
    rw [h1]; omega
  | ⟨2, _⟩ =>
    show win0_1.index t 2 * 128 + 1 * r.val = r.val
    rw [h2]; omega
  | ⟨3, _⟩ =>
    show win0_1.index t 3 * 128 + 1 * l.val = l.val
    rw [h3]; omega

/-! ## One block's sums over the input arrays -/

theorem partBce_eq (t : Fin cfg0.N) (b : Fin 20) (k : Fin 4) (ht : t.val = 4 * b.val + k.val) :
    Acc.partBce (Acc.blkX m c t) (Acc.blkY m c t)
      = ∑ s : Fin 32, ∑ r : Fin 128, ∑ l : Fin 128,
          Cert.Spec.term (m ((c : Thread nD τ).loc main_arg0) (ix5 b (0 : Fin 1) (Cert.Spec.depth k s) r l))
            (m ((c : Thread nD τ).loc main_arg1) (ix5 b (0 : Fin 1) (Cert.Spec.depth k s) r l)) := by
  unfold Acc.partBce
  refine Finset.sum_congr rfl fun s _ => Finset.sum_congr rfl fun r _ => Finset.sum_congr rfl fun l _ => ?_
  exact congrArg₂ Cert.Spec.term (blkX_apply m c t b k ht s r l) (blkY_apply m c t b k ht s r l)

theorem partLowX_eq (t : Fin cfg0.N) (b : Fin 20) (k : Fin 4) (ht : t.val = 4 * b.val + k.val) :
    Acc.partLowX (Acc.blkX m c t)
      = ∑ s : Fin 32, ∑ r : Fin 128, ∑ l : Fin 128,
          Cert.Spec.lowX (m ((c : Thread nD τ).loc main_arg0) (ix5 b (0 : Fin 1) (Cert.Spec.depth k s) r l)) := by
  unfold Acc.partLowX
  refine Finset.sum_congr rfl fun s _ => Finset.sum_congr rfl fun r _ => Finset.sum_congr rfl fun l _ => ?_
  exact congrArg Cert.Spec.lowX (blkX_apply m c t b k ht s r l)

theorem partZeroY_eq (t : Fin cfg0.N) (b : Fin 20) (k : Fin 4) (ht : t.val = 4 * b.val + k.val) :
    Acc.partZeroY (Acc.blkY m c t)
      = ∑ s : Fin 32, ∑ r : Fin 128, ∑ l : Fin 128,
          Cert.Spec.zeroY (m ((c : Thread nD τ).loc main_arg1) (ix5 b (0 : Fin 1) (Cert.Spec.depth k s) r l)) := by
  unfold Acc.partZeroY
  refine Finset.sum_congr rfl fun s _ => Finset.sum_congr rfl fun r _ => Finset.sum_congr rfl fun l _ => ?_
  exact congrArg Cert.Spec.zeroY (blkY_apply m c t b k ht s r l)

/-! ## The running total at a sample's last point -/

/-- At a point divisible by 4 the total restarts. -/
theorem chain_of_restart (P : Fin cfg0.N → EReal) (n : ℕ) (h : n < cfg0.N) (h0 : n % 4 = 0) :
    Acc.chain P n h = 0 + P ⟨n, h⟩ := by
  cases n with
  | zero => rfl
  | succ k => exact Acc.chain_restart P k h h0

/-- Three points after one divisible by 4 the total is the four points' amounts, added in order. -/
theorem chain_four (P : Fin cfg0.N → EReal) (n : ℕ) (h : n + 3 < cfg0.N) (h0 : n % 4 = 0) :
    Acc.chain P (n + 3) h
      = P ⟨n, by omega⟩ + P ⟨n + 1, by omega⟩ + P ⟨n + 2, by omega⟩ + P ⟨n + 3, h⟩ := by
  refine (Acc.chain_step P (n + 2) h (by omega)).trans ?_
  refine congrArg (· + P ⟨n + 3, h⟩) ?_
  refine (Acc.chain_step P (n + 1) (by omega) (by omega)).trans ?_
  refine congrArg (· + P ⟨n + 2, by omega⟩) ?_
  refine (Acc.chain_step P n (by omega) (by omega)).trans ?_
  refine congrArg (· + P ⟨n + 1, by omega⟩) ?_
  exact (chain_of_restart P n (by omega) h0).trans (zero_add _)

/-! ## The totals are the sums over a sample -/

theorem total_bce (b : Fin 20) (h : 4 * b.val + 3 < cfg0.N) :
    Acc.chain (fun t => Acc.partBce (Acc.blkX m c t) (Acc.blkY m c t)) (4 * b.val + 3) h
      = Cert.Spec.batchSum Cert.Spec.term (m ((c : Thread nD τ).loc main_arg0)) (m ((c : Thread nD τ).loc main_arg1)) b := by
  refine (chain_four _ (4 * b.val) h (by omega)).trans ?_
  unfold Cert.Spec.batchSum
  rw [Fin.sum_univ_four]
  exact congrArg₂ (· + ·) (congrArg₂ (· + ·) (congrArg₂ (· + ·)
    (partBce_eq m c _ b 0 rfl) (partBce_eq m c _ b 1 rfl)) (partBce_eq m c _ b 2 rfl)) (partBce_eq m c _ b 3 rfl)

theorem total_lowX (b : Fin 20) (h : 4 * b.val + 3 < cfg0.N) :
    Acc.chain (fun t => Acc.partLowX (Acc.blkX m c t)) (4 * b.val + 3) h
      = Cert.Spec.batchSum (fun a _ => Cert.Spec.lowX a) (m ((c : Thread nD τ).loc main_arg0)) (m ((c : Thread nD τ).loc main_arg1)) b := by
  refine (chain_four _ (4 * b.val) h (by omega)).trans ?_
  unfold Cert.Spec.batchSum
  rw [Fin.sum_univ_four]
  exact congrArg₂ (· + ·) (congrArg₂ (· + ·) (congrArg₂ (· + ·)
    (partLowX_eq m c _ b 0 rfl) (partLowX_eq m c _ b 1 rfl)) (partLowX_eq m c _ b 2 rfl)) (partLowX_eq m c _ b 3 rfl)

theorem total_zeroY (b : Fin 20) (h : 4 * b.val + 3 < cfg0.N) :
    Acc.chain (fun t => Acc.partZeroY (Acc.blkY m c t)) (4 * b.val + 3) h
      = Cert.Spec.batchSum (fun _ a => Cert.Spec.zeroY a) (m ((c : Thread nD τ).loc main_arg0)) (m ((c : Thread nD τ).loc main_arg1)) b := by
  refine (chain_four _ (4 * b.val) h (by omega)).trans ?_
  unfold Cert.Spec.batchSum
  rw [Fin.sum_univ_four]
  exact congrArg₂ (· + ·) (congrArg₂ (· + ·) (congrArg₂ (· + ·)
    (partZeroY_eq m c _ b 0 rfl) (partZeroY_eq m c _ b 1 rfl)) (partZeroY_eq m c _ b 2 rfl)) (partZeroY_eq m c _ b 3 rfl)

end Cert.KernelIdeal.Blocks

end
-- ==== Proof.RefSums.lean ====
/-
  The reference program's stages are the specification's sums.

  Entry by entry, the reference's cross-entropy term, its "x <= 1/2" indicator and its "y truncates to 0"
  indicator are the specification's term, lowX and zeroY (the two maxima commute, 0 - x is -x, and a
  one-bit word read unsigned is the same word widened and read signed). Its total over all five axes and
  its two per-sample sums over the reshaped [20, 2097152] arrays are the specification's sums: a sum over
  the rank-5 index set is the iterated sum over the coordinates, a sum over the 2097152 positions of a
  sample is the triple sum over (depth, row, lane) in row-major order, and a sum over the depth axis is
  the sum over 4 chunks of 32 planes. Only commutativity and associativity of addition are used.
-/
import proofs.«100967_j8254927143083_2_alg».proof.Proof.Gen.ReferenceIdeal.Read
import proofs.«100967_j8254927143083_2_alg».proof.Proof.Spec
import Idealize.ShloMosaic.Lib.ValueIdx
import Idealize.ShloMosaic.PureOps.Ideal.Laws

noncomputable section

open scoped BigOperators

namespace Cert.RefSums

open Idealize.ShloMosaic Idealize.ShloMosaic.ValueIdx Cert.ReferenceIdeal Cert.ReferenceIdeal.Read

/-! ## One entry -/

/-- A one-bit word read as a natural number is the same word widened to 32 bits and read as a signed
    integer: both are 0 at the word 0 and 1 at the word 1. -/
theorem bit_toNat_eq_toInt (w : BitVec 1) :
    (((w.toNat : ℕ) : ℝ) : EReal) = ((((w.setWidth 32).toInt : ℤ) : ℝ) : EReal) := by
  rcases BitVec.eq_zero_or_eq_one w with h | h
  · subst h
    have e1 : (0#1 : BitVec 1).toNat = 0 := by decide
    have e2 : ((0#1 : BitVec 1).setWidth 32).toInt = 0 := by decide
    rw [e1, e2]; simp
  · subst h
    have e1 : (1#1 : BitVec 1).toNat = 1 := by decide
    have e2 : ((1#1 : BitVec 1).setWidth 32).toInt = 1 := by decide
    rw [e1, e2]; simp

/-- "Not (a > c)", spelt as: select 1 where a > c else 0, then compare with 0, is "a <= c" in the linear
    order of the extended reals. -/
theorem not_gt_word (a c : EReal) :
    IntOp.cmpi .eq (Scalar.select (Ideal.cmp .ogt a c) (1#32) (0#32)) (0#32) = Ideal.cmp .ole a c := by
  by_cases h : a ≤ c
  · have h1 : Ideal.cmp .ogt a c = 0#1 := by simp [Ideal.cmp, not_lt.mpr h]
    have h2 : Ideal.cmp .ole a c = 1#1 := by simp [Ideal.cmp, h]
    rw [h1, h2]; decide
  · have h1 : Ideal.cmp .ogt a c = 1#1 := by simp [Ideal.cmp, not_le.mp h]
    have h2 : Ideal.cmp .ole a c = 0#1 := by simp [Ideal.cmp, h]
    rw [h1, h2]; decide

/-- The reference's cross-entropy term at an entry is the specification's: the two maxima commute and
    0 - x is -x. -/
theorem ref_term (x y : (⟨S20x1x128x128x128, .f32⟩ : BufTy).Contents (Elt Ideal)) (i : S20x1x128x128x128.Idx) :
    val_main_v9 (F := Ideal) x y i = Cert.Spec.term (x i) (y i) := by
  rw [val_main_v9_apply, val_main_v5_apply, val_main_v8_apply, val_main_v1_apply, val_main_v4_apply,
    val_main_v7_apply, val_main_v0_apply, val_main_v3_apply, val_main_v2_apply, val_main_call0_v1_apply,
    val_main_call1_v1_apply, val_main_v6_apply, val_main_call0_v0_apply, val_main_call1_v0_apply,
    val_main_cst_apply, val_main_cst_0_apply, val_main_cst_1_apply]
  simp only [Ideal.ofBits_def, Ideal.addf_def, Ideal.mulf_def, Ideal.subf_def, Ideal.maximumf_def,
    Ideal.hostUnary_log_def, Ideal.hostUnary_log1p_def, Ideal.hostNegf_def, Ideal.negf_def]
  unfold Cert.Spec.term
  rw [Ideal.ofBits_zero_f32, zero_sub, max_comm (Ideal.ofBits .f32 0xC2C80000#32),
    max_comm (Ideal.ofBits .f32 0xC2C80000#32)]

/-- The reference's "x <= 1/2" indicator at an entry is the specification's. -/
theorem ref_lowX (x : (⟨S20x1x128x128x128, .f32⟩ : BufTy).Contents (Elt Ideal)) (i : S20x1x128x128x128.Idx) :
    val_main_v19 (F := Ideal) x i = Cert.Spec.lowX (x i) := by
  rw [val_main_v19_apply, val_main_v18_apply, val_main_v15_apply, val_main_v14_apply, val_main_v13_apply,
    val_main_call2_v0_apply, val_main_call2_v1_apply, val_main_v17_apply, val_main_cst_4_apply,
    val_main_c_apply, val_main_c_5_apply, val_main_c_6_apply]
  unfold Cert.Spec.lowX
  rw [← bit_toNat_eq_toInt, ← not_gt_word]
  rfl

/-- The reference's "y truncates to 0" indicator at an entry is the specification's. -/
theorem ref_zeroY (y : (⟨S20x1x128x128x128, .f32⟩ : BufTy).Contents (Elt Ideal)) (i : S20x1x128x128x128.Idx) :
    val_main_v26 (F := Ideal) y i = Cert.Spec.zeroY (y i) := by
  rw [val_main_v26_apply, val_main_v25_apply, val_main_v16_apply, val_main_v24_apply, val_main_c_9_apply]
  unfold Cert.Spec.zeroY
  rw [← bit_toNat_eq_toInt]
  rfl

/-! ## Re-indexing sums (any additive commutative monoid) -/

section Regroup

variable {M : Type*} [AddCommMonoid M]

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the iterated sum over the coordinates. -/
theorem sum_idx5 {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- Entry (d, r, l) of a 128 x 128 x 128 cube at its row-major position. -/
def cube (d r l : Fin 128) : Fin 2097152 :=
  ⟨(d.val * 128 + r.val) * 128 + l.val, by have := d.isLt; have := r.isLt; have := l.isLt; omega⟩

/-- Row-major order is a bijection from the cube's coordinates to its positions: the position's quotient by
    16384, its quotient by 128 modulo 128, and its remainder modulo 128 give the coordinates back. -/
def cubeEquiv : Fin 128 × Fin 128 × Fin 128 ≃ Fin 2097152 where
  toFun p := cube p.1 p.2.1 p.2.2
  invFun k := (⟨k.val / 16384, by have := k.isLt; omega⟩, ⟨k.val / 128 % 128, Nat.mod_lt _ (by decide)⟩,
    ⟨k.val % 128, Nat.mod_lt _ (by decide)⟩)
  left_inv p := by
    obtain ⟨d, r, l⟩ := p
    have := d.isLt; have := r.isLt; have := l.isLt
    refine Prod.ext (Fin.ext ?_) (Prod.ext (Fin.ext ?_) (Fin.ext ?_))
    · show ((d.val * 128 + r.val) * 128 + l.val) / 16384 = d.val; omega
    · show ((d.val * 128 + r.val) * 128 + l.val) / 128 % 128 = r.val; omega
    · show ((d.val * 128 + r.val) * 128 + l.val) % 128 = l.val; omega
  right_inv k := by
    have := k.isLt
    refine Fin.ext ?_
    show (k.val / 16384 * 128 + k.val / 128 % 128) * 128 + k.val % 128 = k.val; omega

/-- A sum over the 2097152 positions is the triple sum over the cube's coordinates. -/
theorem sum_cube (g : Fin 2097152 → M) :
    ∑ k, g k = ∑ d : Fin 128, ∑ r : Fin 128, ∑ l : Fin 128, g (cube d r l) := by
  rw [← Equiv.sum_comp cubeEquiv g]
  simp only [Fintype.sum_prod_type]
  rfl

/-- The depth axis as 4 chunks of 32 planes: depth = 32 * c + s is a bijection. -/
def depthEquiv : Fin 4 × Fin 32 ≃ Fin 128 where
  toFun p := Cert.Spec.depth p.1 p.2
  invFun d := (⟨d.val / 32, by have := d.isLt; omega⟩, ⟨d.val % 32, Nat.mod_lt _ (by decide)⟩)
  left_inv p := by
    obtain ⟨c, s⟩ := p
    have := c.isLt; have := s.isLt
    refine Prod.ext (Fin.ext ?_) (Fin.ext ?_)
    · show (32 * c.val + s.val) / 32 = c.val; omega
    · show (32 * c.val + s.val) % 32 = s.val; omega
  right_inv d := by
    refine Fin.ext ?_
    show 32 * (d.val / 32) + d.val % 32 = d.val; omega

/-- A sum over the depth axis is the sum over the chunks of the sums over a chunk's planes. -/
theorem sum_depth (h : Fin 128 → M) :
    ∑ d, h d = ∑ c : Fin 4, ∑ s : Fin 32, h (Cert.Spec.depth c s) := by
  rw [← Equiv.sum_comp depthEquiv h, Fintype.sum_prod_type]
  rfl

end Regroup

/-! ## The reshape's index -/

/-- Position (d, r, l) of row b of the reshaped [20, 2097152] array is entry (b, 0, d, r, l) of the
    rank-5 array. -/
theorem idx_v20_cube (b : Fin 20) (d r l : Fin 128) :
    idx_main_v20 (idx_main_v21 (ix1 b) (cube d r l)) = ix5 b (0 : Fin 1) d r l := by
  have := b.isLt; have := d.isLt; have := r.isLt; have := l.isLt
  funext a
  refine Fin.ext ?_
  match a with
  | ⟨0, _⟩ => show (b.val * 2097152 + ((d.val * 128 + r.val) * 128 + l.val)) / 2097152 = b.val; omega
  | ⟨1, _⟩ => rfl
  | ⟨2, _⟩ => show (b.val * 2097152 + ((d.val * 128 + r.val) * 128 + l.val)) / 16384 % 128 = d.val; omega
  | ⟨3, _⟩ => show (b.val * 2097152 + ((d.val * 128 + r.val) * 128 + l.val)) / 128 % 128 = r.val; omega
  | ⟨4, _⟩ => show (b.val * 2097152 + ((d.val * 128 + r.val) * 128 + l.val)) % 128 = l.val; omega

/-- The same for the second reshape. -/
theorem idx_v27_cube (b : Fin 20) (d r l : Fin 128) :
    idx_main_v27 (idx_main_v28 (ix1 b) (cube d r l)) = ix5 b (0 : Fin 1) d r l :=
  idx_v20_cube b d r l

/-! ## The three sums -/

/-- The reference's total of the cross-entropy terms is the sum over the samples of the specification's
    per-sample sums. -/
theorem ref_total (x y : (⟨S20x1x128x128x128, .f32⟩ : BufTy).Contents (Elt Ideal)) (i : S_.Idx) :
    val_main_v10 (F := Ideal) x y i = ∑ b : Fin 20, Cert.Spec.batchSum Cert.Spec.term x y b := by
  rw [val_main_v10_apply, val_main_cst_2_apply, Ideal.ofBits_def, Ideal.ofBits_zero_f32, zero_add, sum_idx5]
  refine Finset.sum_congr rfl fun b _ => ?_
  rw [Fin.sum_univ_one, sum_depth]
  unfold Cert.Spec.batchSum
  refine Finset.sum_congr rfl fun c _ => Finset.sum_congr rfl fun s _ =>
    Finset.sum_congr rfl fun r _ => Finset.sum_congr rfl fun l _ => ?_
  exact ref_term x y _

/-- The reference's per-sample count of entries with x <= 1/2 is the specification's. -/
theorem ref_lowX_sum (x y : (⟨S20x1x128x128x128, .f32⟩ : BufTy).Contents (Elt Ideal)) (b : Fin 20) :
    val_main_v21 (F := Ideal) x (ix1 b) = Cert.Spec.batchSum (fun a _ => Cert.Spec.lowX a) x y b := by
  rw [val_main_v21_apply, val_main_cst_7_apply, Ideal.ofBits_def, Ideal.ofBits_zero_f32, zero_add, sum_cube,
    sum_depth]
  unfold Cert.Spec.batchSum
  refine Finset.sum_congr rfl fun c _ => Finset.sum_congr rfl fun s _ =>
    Finset.sum_congr rfl fun r _ => Finset.sum_congr rfl fun l _ => ?_
  rw [val_main_v20_apply, idx_v20_cube, ref_lowX]

/-- The reference's per-sample count of entries whose y truncates to 0 is the specification's. -/
theorem ref_zeroY_sum (x y : (⟨S20x1x128x128x128, .f32⟩ : BufTy).Contents (Elt Ideal)) (b : Fin 20) :
    val_main_v28 (F := Ideal) y (ix1 b) = Cert.Spec.batchSum (fun _ a => Cert.Spec.zeroY a) x y b := by
  rw [val_main_v28_apply, val_main_cst_10_apply, Ideal.ofBits_def, Ideal.ofBits_zero_f32, zero_add, sum_cube,
    sum_depth]
  unfold Cert.Spec.batchSum
  refine Finset.sum_congr rfl fun c _ => Finset.sum_congr rfl fun s _ =>
    Finset.sum_congr rfl fun r _ => Finset.sum_congr rfl fun l _ => ?_
  rw [val_main_v27_apply, idx_v27_cube, ref_zeroY]

end Cert.RefSums

end
-- ==== Proof.Bridge.lean ====
/-
  The kernel program's scalar tail is the reference's last stages once the per-sample sums agree.

  Both programs apply the same chain of operations to the two vectors of per-sample counts, so that part
  is the same function of equal arguments. For the cross-entropy part the kernel program negates the sum
  over the samples and then divides by the number of entries, the reference divides the sum over all
  entries and then negates: division by a nonzero constant commutes with negation, and the sum over all
  entries is the sum over the samples of the per-sample sums.
-/
import proofs.«100967_j8254927143083_2_alg».proof.Proof.Tail
import proofs.«100967_j8254927143083_2_alg».proof.Proof.RefSums
import proofs.«100967_j8254927143083_2_alg».proof.Proof.Spec
import Idealize.ShloMosaic.Lib.ValueIdx
import Idealize.ShloMosaic.PureOps.Ideal.Laws

noncomputable section

open scoped BigOperators

namespace Cert.Bridge

open Idealize.ShloMosaic Idealize.ShloMosaic.ValueIdx

/-! ## Small facts -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The f32 word 0x4C200000 denotes 41943040 = 20 * 2^21, the number of all entries. -/
theorem ofBits_numel : Ideal.ofBits .f32 0x4C200000#32 = ((41943040 : ℝ) : EReal) := by
  simp [Ideal.ofBits, Ideal.ieee, -EReal.coe_mul]; norm_num

/-- Division by that constant commutes with negation: off zero a quotient is a product with the inverse. -/
theorem div_neg_numel (s : EReal) :
    Ideal.div (-s) (Ideal.ofBits .f32 0x4C200000#32) = -(Ideal.div s (Ideal.ofBits .f32 0x4C200000#32)) := by
  have hc : Ideal.ofBits .f32 0x4C200000#32 ≠ 0 := by
    rw [ofBits_numel]; exact EReal.coe_ne_zero.mpr (by norm_num)
  unfold Ideal.div
  rw [if_neg hc, if_neg hc, EReal.neg_mul]

/-- The host's sum of a 20-entry vector from the zero word, read at the one index of the scalar shape:
    the sum over the 20 samples. -/
theorem hostSum20 (v : FVec Ideal Cert.KernelIdeal.S20 .f32) (i : Cert.KernelIdeal.S_.Idx) :
    Host.reduceAdd (F := Ideal) v (constant (F := Ideal) Cert.KernelIdeal.S_ .f32 0x00000000#32)
        Cert.KernelIdeal.Facts₀.reducesTo_S20_S_d0 Cert.KernelIdeal.Facts₀.h_S_ i
      = ∑ b : Fin 20, v (ix1 b) := by
  simp only [Host.reduceAdd, Ideal.hostReduceAdd_def]
  rw [Ideal.hostReduceAdd_total Cert.KernelIdeal.Facts₀.reducesTo_S20_S_d0 (fun b => b.elim0),
    constant_apply, Ideal.ofBits_zero_f32, zero_add, sum_idx1]

/-! ## The two tails -/

/-- The cross-entropy part: minus the sum over the samples, over the number of entries, is minus the
    reference's mean over all entries. -/
theorem mse_eq (X Y : Cert.Spec.Arr) (bce : FVec Ideal Cert.KernelIdeal.S20 .f32)
    (hb : ∀ b : Fin 20, bce (ix1 b) = Cert.Spec.batchSum Cert.Spec.term X Y b) :
    Cert.KernelIdeal.Tail.mse bce = Cert.ReferenceIdeal.Read.val_main_v12 (F := Ideal) X Y := by
  funext i
  rw [Cert.ReferenceIdeal.Read.val_main_v12_apply, Cert.ReferenceIdeal.Read.val_main_v11_apply,
    Cert.ReferenceIdeal.Read.val_main_cst_3_apply, Cert.RefSums.ref_total X Y i]
  unfold Cert.KernelIdeal.Tail.mse
  simp only [Host.divf, Host.negf]
  rw [hostSum20, constant_apply]
  simp only [Ideal.hostDivf_def, Ideal.hostNegf_def, Ideal.negf_def, Ideal.ofBits_def]
  rw [div_neg_numel]
  simp only [hb]

/-- The squared-difference part is the same chain of operations on equal vectors. -/
theorem pore_eq (X Y : Cert.Spec.Arr) (sx sy : FVec Ideal Cert.KernelIdeal.S20 .f32)
    (hx : ∀ b : Fin 20, sx (ix1 b) = Cert.Spec.batchSum (fun a _ => Cert.Spec.lowX a) X Y b)
    (hy : ∀ b : Fin 20, sy (ix1 b) = Cert.Spec.batchSum (fun _ a => Cert.Spec.zeroY a) X Y b) :
    Cert.KernelIdeal.Tail.pore sx sy = Cert.ReferenceIdeal.Read.val_main_v34 (F := Ideal) X Y := by
  have ex : sx = Cert.ReferenceIdeal.Read.val_main_v21 (F := Ideal) X := by
    funext j
    obtain ⟨b, rfl⟩ : ∃ b : Fin 20, j = ix1 b := ⟨j 0, eq_ix1 j⟩
    rw [hx b, Cert.RefSums.ref_lowX_sum X Y b]
  have ey : sy = Cert.ReferenceIdeal.Read.val_main_v28 (F := Ideal) Y := by
    funext j
    obtain ⟨b, rfl⟩ : ∃ b : Fin 20, j = ix1 b := ⟨j 0, eq_ix1 j⟩
    rw [hy b, Cert.RefSums.ref_zeroY_sum X Y b]
  rw [ex, ey]
  rfl

/-- The first result: both parts agree. -/
theorem total_eq (X Y : Cert.Spec.Arr) (bce sx sy : FVec Ideal Cert.KernelIdeal.S20 .f32)
    (hb : ∀ b : Fin 20, bce (ix1 b) = Cert.Spec.batchSum Cert.Spec.term X Y b)
    (hx : ∀ b : Fin 20, sx (ix1 b) = Cert.Spec.batchSum (fun a _ => Cert.Spec.lowX a) X Y b)
    (hy : ∀ b : Fin 20, sy (ix1 b) = Cert.Spec.batchSum (fun _ a => Cert.Spec.zeroY a) X Y b) :
    Cert.KernelIdeal.Tail.total bce sx sy = Cert.ReferenceIdeal.Read.val_main_v35 (F := Ideal) X Y := by
  unfold Cert.KernelIdeal.Tail.total Cert.ReferenceIdeal.Read.val_main_v35
  rw [pore_eq X Y sx sy hx hy, mse_eq X Y bce hb]

end Cert.Bridge

end
-- ==== Proof.lean ====
/-
  The kernel and its reference compute the same two numbers on the extended reals.

  Inputs x, y of shape [20, 1, 128, 128, 128]. For each sample b let
    bce b = the sum over the sample's entries of  y * max (log x) (-100) + (1 - y) * max (log (1 - x)) (-100),
    nx b  = the number of its entries with x <= 1/2,    ny b = the number of its entries whose y truncates to 0.
  Both programs return  pore + mse  and  pore,  where  pore = (sum over b of (nx b / 2^21 - ny b / 2^21)^2) / 20
  and mse is minus the sum of all cross-entropy terms divided by 20 * 2^21.

  The kernel walks a grid of 20 x 4 points, one chunk of 32 depth planes of one sample per point, and keeps three
  running totals per sample in output blocks that stay resident over the sample's four chunks: after the fourth
  chunk every lane of row b of each output array holds the sample's total, whatever the grouping of the sum
  (addition of extended reals is commutative and associative; no finiteness is used). The host then reads one lane
  per sample and finishes with scalar arithmetic. The reference sums each sample's 2^21 entries in one pass, after
  a reshape, and all 20 * 2^21 cross-entropy terms in one pass. The two differ only in laws that hold for every
  extended real: max is commutative, 0 - x is -x, "not (x > 1/2)" is "x <= 1/2" in a linear order, a one-bit word
  reads the same signed after widening as unsigned, and (-s) / c = -(s / c) for the nonzero constant c = 20 * 2^21.
  The idealization rewrote nothing, so the kernel and its idealization are the same text.
-/
import proofs.«100967_j8254927143083_2_alg».proof.Defs
import proofs.«100967_j8254927143083_2_alg».proof.Proof.Gen.Kernel
import proofs.«100967_j8254927143083_2_alg».proof.Proof.Gen.Kernel.Skeleton
import proofs.«100967_j8254927143083_2_alg».proof.Proof.Gen.Kernel.Launch
import proofs.«100967_j8254927143083_2_alg».proof.Proof.Gen.Kernel.Points
import proofs.«100967_j8254927143083_2_alg».proof.Proof.Gen.Kernel.Frame
import proofs.«100967_j8254927143083_2_alg».proof.Proof.Gen.KernelIdeal
import proofs.«100967_j8254927143083_2_alg».proof.Proof.Gen.KernelIdeal.Skeleton
import proofs.«100967_j8254927143083_2_alg».proof.Proof.Gen.KernelIdeal.Launch
import proofs.«100967_j8254927143083_2_alg».proof.Proof.Gen.KernelIdeal.Points
import proofs.«100967_j8254927143083_2_alg».proof.Proof.Gen.KernelIdeal.Frame
import proofs.«100967_j8254927143083_2_alg».proof.Proof.Gen.ReferenceIdeal
import proofs.«100967_j8254927143083_2_alg».proof.Proof.Gen.ReferenceIdeal.Run
import proofs.«100967_j8254927143083_2_alg».proof.Proof.Gen.ReferenceIdeal.Read
import proofs.«100967_j8254927143083_2_alg».proof.Proof.Gen.Pre_finite_inputs
import proofs.«100967_j8254927143083_2_alg».proof.Proof.KRun
import proofs.«100967_j8254927143083_2_alg».proof.Proof.Blocks
import proofs.«100967_j8254927143083_2_alg».proof.Proof.Bridge
import Idealize.ShloMosaic.Adequacy
import Idealize.ShloMosaic.Init

set_option maxRecDepth 16384

noncomputable section

namespace Cert.Proof

open Idealize.ShloMosaic Idealize.ShloMosaic.ValueIdx Idealize.SL.Sem
open Cert.KernelIdeal.KRun Cert.KernelIdeal.Final

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The last chunk of sample b is grid point 4b + 3. -/
theorem last_lt (b : Fin 20) : 4 * b.val + 3 < Cert.KernelIdeal.cfg0.N :=
  lt_of_lt_of_eq (show 4 * b.val + 3 < 80 by have := b.isLt; omega) (show (80 : ℕ) = Cert.KernelIdeal.cfg0.N from Cert.KernelIdeal.Gen.N_0.symm)

/-- Both programs end with the scalar arithmetic of the same three vectors of per-sample sums: the kernel's are the
    totals its output arrays hold, the reference's its one-pass sums, and each is the specification's sum. -/
theorem algebraic : Cert.algebraic_KernelIdeal_ReferenceIdeal := by
  intro m ρ m' ρ' _ hagree
  refine ⟨fun c => Cert.KernelIdeal.Tail.total (rowsOf (G (P2 m c))) (rowsOf (G (P3 m c))) (rowsOf (G (P4 m c))),
    fun c => Cert.KernelIdeal.Tail.pore (rowsOf (G (P3 m c))) (rowsOf (G (P4 m c))),
    Cert.KernelIdeal.KRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v35_eq, (hagree c).1, (hagree c).2]
    exact (Cert.Bridge.total_eq _ _ _ _ _
      (fun b => (rowsOf_G _ b (last_lt b)).trans (Cert.KernelIdeal.Blocks.total_bce m c b (last_lt b)))
      (fun b => (rowsOf_G _ b (last_lt b)).trans (Cert.KernelIdeal.Blocks.total_lowX m c b (last_lt b)))
      (fun b => (rowsOf_G _ b (last_lt b)).trans (Cert.KernelIdeal.Blocks.total_zeroY m c b (last_lt b)))).symm
  · rw [Cert.ReferenceIdeal.Read.val_main_v34_eq, (hagree c).1, (hagree c).2]
    exact (Cert.Bridge.pore_eq _ _ _ _
      (fun b => (rowsOf_G _ b (last_lt b)).trans (Cert.KernelIdeal.Blocks.total_lowX m c b (last_lt b)))
      (fun b => (rowsOf_G _ b (last_lt b)).trans (Cert.KernelIdeal.Blocks.total_zeroY m c b (last_lt b)))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
